-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x20000x64 : Shape := ⟨3, ![64, 20000, 64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S8x2 : Shape := ⟨2, ![8, 2]⟩
abbrev S2 : Shape := ⟨1, ![2]⟩
abbrev S_ : Shape := ⟨0, ![]⟩

class Facts : Prop where
  bcast_S_S64x20000x64 : S_.BroadcastsInDim S64x20000x64 (![] : Fin 0 → Fin S64x20000x64.rank)
  reducesTo_S64x20000x64_S_d0_1_2 : S64x20000x64.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S8x2 .f32) (main_arg8 : FVec F S2 .f32) (main_v33 : IVec S_ 1) : IVec S_ 1 :=
  let main_v34 : FVec F S8x2 .f32 := Host.absf main_arg7
  let main_cst_12 : FVec F S_ .f32 := constant S_ .f32 0x7F800000#32
  let main_v35 : FVec F S8x2 .f32 := broadcastInDim S8x2 ![] bcast_S_S8x2 main_cst_12
  let main_v36 : IVec S8x2 1 := cmpf .olt main_v34 main_v35
  let main_c_13 : IVec S_ 1 := constantI S_ 1 1#1
  let main_v37 : IVec S_ 1 := (fun x v => Host.reduce IntOp.andi x v reducesTo_S8x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S8 .f32) (main_arg5 : FVec F S8x1 .f32) (main_arg6 : FVec F S1 .f32) (main_arg7 : FVec F S8x2 .f32) (main_arg8 : FVec F S2 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg5
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S64x20000x64 .f32) (main_arg1 : FVec F S64x16 .f32) (main_arg2 : FVec F S16 .f32) (main_arg3 : FVec F S16x8 .f32) (main_arg4 : FVec F S8 .f32) (main_arg5 : FVec F S8x1 .f32) (main_arg6 : FVec F S1 .f32) (main_arg7 : FVec F S8x2 .f32) (main_arg8 : FVec F S2 .f32) : IVec S_ 1 :=
  let main_v0 : FVec F S64x20000x64 .f32 := Host.absf main_arg0
  let main_cst : FVec F S_ .f32 := constant S_ .f32 0x7F800000#32
  let main_v1 : FVec F S64x20000x64 .f32 := broadcastInDim S64x20000x64 ![] bcast_S_S64x20000x64 main_cst
  let main_v2 : IVec S64x20000x64 1 := cmpf .olt main_v0 main_v1
  let main_c : IVec S_ 1 := constantI S_ 1 1#1
  let main_v3 : IVec S_ 1 := (fun x v => Host.reduce IntOp.andi x v reducesTo_S64x20000x64_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_arg5 main_arg6 main_arg7 main_arg8 main_v13 main_v16
-- ==== Kernel.lean ====
abbrev S64x20000x64 : Shape := ⟨3, ![64, 20000, 64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S8x2 : Shape := ⟨2, ![8, 2]⟩
abbrev S2 : Shape := ⟨1, ![2]⟩
abbrev S16x1 : Shape := ⟨2, ![16, 1]⟩
abbrev S1x1 : Shape := ⟨2, ![1, 1]⟩
abbrev S64x8x1 : Shape := ⟨3, ![64, 8, 1]⟩
abbrev S1x5000x64 : Shape := ⟨3, ![1, 5000, 64]⟩
abbrev S1x8x1 : Shape := ⟨3, ![1, 8, 1]⟩
abbrev S5000x64 : Shape := ⟨2, ![5000, 64]⟩
abbrev S16x5000 : Shape := ⟨2, ![16, 5000]⟩
abbrev S8x5000 : Shape := ⟨2, ![8, 5000]⟩
abbrev S1x5000 : Shape := ⟨2, ![1, 5000]⟩
abbrev S64x8 : Shape := ⟨2, ![64, 8]⟩
abbrev S64x2 : Shape := ⟨2, ![64, 2]⟩
abbrev S1x2 : Shape := ⟨2, ![1, 2]⟩

abbrev nBuf : Space → Nat
  | .hbm => 18
  | .vmem => 12
  | .smem => 0
  | _ => 0

abbrev bufTy : (tb : Table) → Fin (tcTables nBuf tb) → BufTy
  | .hbm, ⟨0, _⟩ => ⟨S64x20000x64, .f32⟩
  | .hbm, ⟨1, _⟩ => ⟨S64x16, .f32⟩
  | .hbm, ⟨2, _⟩ => ⟨S16, .f32⟩
  | .hbm, ⟨3, _⟩ => ⟨S16x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S8x2, .f32⟩
  | .hbm, ⟨8, _⟩ => ⟨S2, .f32⟩
  | .hbm, ⟨9, _⟩ => ⟨S16x1, .f32⟩
  | .hbm, ⟨10, _⟩ => ⟨S8x1, .f32⟩
  | .hbm, ⟨11, _⟩ => ⟨S1x1, .f32⟩
  | .hbm, ⟨12, _⟩ => ⟨S64x8x1, .f32⟩
  | .hbm, ⟨13, _⟩ => ⟨S64x8, .f32⟩
  | .hbm, ⟨14, _⟩ => ⟨S64x2, .f32⟩
  | .hbm, ⟨15, _⟩ => ⟨S1x2, .f32⟩
  | .hbm, ⟨16, _⟩ => ⟨S64x2, .f32⟩
  | .hbm, ⟨17, _⟩ => ⟨S64x2, .f32⟩
  | .local _ .vmem, ⟨0, _⟩ => ⟨S1x5000x64, .f32⟩
  | .local _ .vmem, ⟨1, _⟩ => ⟨S1x5000x64, .f32⟩
  | .local _ .vmem, ⟨2, _⟩ => ⟨S64x16, .f32⟩
  | .local _ .vmem, ⟨3, _⟩ => ⟨S16x1, .f32⟩
  | .local _ .vmem, ⟨4, _⟩ => ⟨S16x8, .f32⟩
  | .local _ .vmem, ⟨5, _⟩ => ⟨S8x1, .f32⟩
  | .local _ .vmem, ⟨6, _⟩ => ⟨S8x1, .f32⟩
  | .local _ .vmem, ⟨7, _⟩ => ⟨S1x1, .f32⟩
  | .local _ .vmem, ⟨8, _⟩ => ⟨S1x8x1, .f32⟩
  | .local _ .vmem, ⟨9, _⟩ => ⟨S1x8x1, .f32⟩
  | .local _ .vmem, ⟨10, _⟩ => ⟨S8x1, .f32⟩
  | .local _ .vmem, ⟨11, _⟩ => ⟨S1x1, .f32⟩
  | _, _ => ⟨S64x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_29 : BitVec 32 := 0#32
  let v52 : BitVec 1 := Scalar.cmpi .ne v51 c0_i32_29
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S16_S16x1 : S16.ShapeCasts S16x1
  shapeCasts_S8_S8x1 : S8.ShapeCasts S8x1
  shapeCasts_S1_S1x1 : S1.ShapeCasts S1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x5000 : S16x1.Broadcasts S16x5000
  inb_S16x8_S16x8_0_0 : ∀ a, (![0, 0] : Fin 2 → Nat) a + S16x8.size a ≤ S16x8.size a
  h_S16x8 : 0 < S16x8.numel
  broadcasts_S8x1_S8x5000 : S8x1.Broadcasts S8x5000
  broadcasts_S1x1_S1x5000 : S1x1.Broadcasts S1x5000
  broadcasts_S1x5000_S8x5000 : S1x5000.Broadcasts S8x5000
  reduces_S8x5000_S8 : S8x5000.Reduces [1] S8
  reduces_S1x5000_S1 : S1x5000.Reduces [1] S1
  broadcasts_S1x1_S8x1 : S1x1.Broadcasts S8x1
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  shapeCasts_S64x8x1_S64x8 : S64x8x1.ShapeCasts S64x8
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S64x16_S5000x64_S16x5000_0_1_1_0_n_n_wf : DotDims.WF S64x16 S5000x64 S16x5000 [0] [1] [1] [0] [] []
  dot_S16x8_S16x5000_S8x5000_0_0_1_1_n_n_wf : DotDims.WF S16x8 S16x5000 S8x5000 [0] [0] [1] [1] [] []
  dot_S8x1_S8x5000_S1x5000_0_0_1_1_n_n_wf : DotDims.WF S8x1 S8x5000 S1x5000 [0] [0] [1] [1] [] []
  dot_S64x8_S8x2_S64x2_1_0_0_1_n_n_wf : DotDims.WF S64x8 S8x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x64.size a ≤ S64x20000x64.size a
  hwx0_0 : ∀ i : grid0.Coords, EltTy.bits .f32 = 32 ∨ (Rect.block (s := S64x20000x64) S1x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x1.size a ≤ S64x8x1.size a
  hwx0_7 : ∀ i : grid0.Coords, EltTy.bits .f32 = 32 ∨ (Rect.block (s := S64x8x1) S1x8x1.size (cc0_transform_7 i) (hinb0_7 i)).WholeWords (EltTy.packing .f32)

variable [Facts₀]

def dot_S64x16_S5000x64_S16x5000_0_1_1_0_n_n : DotDims S64x16 S5000x64 S16x5000 where
  lhsContracting := [0]
  rhsContracting := [1]
  lhsNonContracting := [1]
  rhsNonContracting := [0]
  lhsBatch := []
  rhsBatch := []
  wf := dot_S64x16_S5000x64_S16x5000_0_1_1_0_n_n_wf
def dot_S16x8_S16x5000_S8x5000_0_0_1_1_n_n : DotDims S16x8 S16x5000 S8x5000 where
  lhsContracting := [0]
  rhsContracting := [0]
  lhsNonContracting := [1]
  rhsNonContracting := [1]
  lhsBatch := []
  rhsBatch := []
  wf := dot_S16x8_S16x5000_S8x5000_0_0_1_1_n_n_wf
def dot_S8x1_S8x5000_S1x5000_0_0_1_1_n_n : DotDims S8x1 S8x5000 S1x5000 where
  lhsContracting := [0]
  rhsContracting := [0]
  lhsNonContracting := [1]
  rhsNonContracting := [1]
  lhsBatch := []
  rhsBatch := []
  wf := dot_S8x1_S8x5000_S1x5000_0_0_1_1_n_n_wf
def dot_S64x8_S8x2_S64x2_1_0_0_1_n_n : DotDims S64x8 S8x2 S64x2 where
  lhsContracting := [1]
  rhsContracting := [0]
  lhsNonContracting := [0]
  rhsNonContracting := [1]
  lhsBatch := []
  rhsBatch := []
  wf := dot_S64x8_S8x2_S64x2_1_0_0_1_n_n_wf

abbrev win0_0 : Pipeline.Window sig grid0 :=
  Pipeline.Window.ofSpec (Memref.whole main_arg0) S1x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x8x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x20000x64 : Shape := ⟨3, ![64, 20000, 64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S8x2 : Shape := ⟨2, ![8, 2]⟩
abbrev S2 : Shape := ⟨1, ![2]⟩
abbrev S64x20000x16 : Shape := ⟨3, ![64, 20000, 16]⟩
abbrev S1x1x16 : Shape := ⟨3, ![1, 1, 16]⟩
abbrev S_ : Shape := ⟨0, ![]⟩
abbrev S64x20000x8 : Shape := ⟨3, ![64, 20000, 8]⟩
abbrev S1x1x8 : Shape := ⟨3, ![1, 1, 8]⟩
abbrev S64x20000x1 : Shape := ⟨3, ![64, 20000, 1]⟩
abbrev S1x1x1 : Shape := ⟨3, ![1, 1, 1]⟩
abbrev S64x8 : Shape := ⟨2, ![64, 8]⟩
abbrev S64x1 : Shape := ⟨2, ![64, 1]⟩
abbrev S64x2 : Shape := ⟨2, ![64, 2]⟩
abbrev S1x2 : Shape := ⟨2, ![1, 2]⟩

abbrev nBuf : Space → Nat
  | .hbm => 47
  | .vmem => 0
  | .smem => 0
  | _ => 0

abbrev bufTy : (tb : Table) → Fin (tcTables nBuf tb) → BufTy
  | .hbm, ⟨0, _⟩ => ⟨S64x20000x64, .f32⟩
  | .hbm, ⟨1, _⟩ => ⟨S64x16, .f32⟩
  | .hbm, ⟨2, _⟩ => ⟨S16, .f32⟩
  | .hbm, ⟨3, _⟩ => ⟨S16x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S8x2, .f32⟩
  | .hbm, ⟨8, _⟩ => ⟨S2, .f32⟩
  | .hbm, ⟨9, _⟩ => ⟨S64x20000x16, .f32⟩
  | .hbm, ⟨10, _⟩ => ⟨S1x1x16, .f32⟩
  | .hbm, ⟨11, _⟩ => ⟨S64x20000x16, .f32⟩
  | .hbm, ⟨12, _⟩ => ⟨S64x20000x16, .f32⟩
  | .hbm, ⟨13, _⟩ => ⟨S_, .f32⟩
  | .hbm, ⟨14, _⟩ => ⟨S64x20000x16, .f32⟩
  | .hbm, ⟨15, _⟩ => ⟨S64x20000x16, .f32⟩
  | .hbm, ⟨16, _⟩ => ⟨S64x20000x8, .f32⟩
  | .hbm, ⟨17, _⟩ => ⟨S1x1x8, .f32⟩
  | .hbm, ⟨18, _⟩ => ⟨S64x20000x8, .f32⟩
  | .hbm, ⟨19, _⟩ => ⟨S64x20000x8, .f32⟩
  | .hbm, ⟨20, _⟩ => ⟨S_, .f32⟩
  | .hbm, ⟨21, _⟩ => ⟨S64x20000x8, .f32⟩
  | .hbm, ⟨22, _⟩ => ⟨S64x20000x8, .f32⟩
  | .hbm, ⟨23, _⟩ => ⟨S64x20000x1, .f32⟩
  | .hbm, ⟨24, _⟩ => ⟨S1x1x1, .f32⟩
  | .hbm, ⟨25, _⟩ => ⟨S64x20000x1, .f32⟩
  | .hbm, ⟨26, _⟩ => ⟨S64x20000x1, .f32⟩
  | .hbm, ⟨27, _⟩ => ⟨S64x20000x1, .f32⟩
  | .hbm, ⟨28, _⟩ => ⟨S64x20000x1, .f32⟩
  | .hbm, ⟨29, _⟩ => ⟨S_, .f32⟩
  | .hbm, ⟨30, _⟩ => ⟨S64x20000x1, .f32⟩
  | .hbm, ⟨31, _⟩ => ⟨S64x20000x1, .f32⟩
  | .hbm, ⟨32, _⟩ => ⟨S_, .f32⟩
  | .hbm, ⟨33, _⟩ => ⟨S64x20000x1, .f32⟩
  | .hbm, ⟨34, _⟩ => ⟨S64x20000x1, .f32⟩
  | .hbm, ⟨35, _⟩ => ⟨S64x20000x8, .f32⟩
  | .hbm, ⟨36, _⟩ => ⟨S64x20000x8, .f32⟩
  | .hbm, ⟨37, _⟩ => ⟨S_, .f32⟩
  | .hbm, ⟨38, _⟩ => ⟨S64x8, .f32⟩
  | .hbm, ⟨39, _⟩ => ⟨S_, .f32⟩
  | .hbm, ⟨40, _⟩ => ⟨S64x1, .f32⟩
  | .hbm, ⟨41, _⟩ => ⟨S64x8, .f32⟩
  | .hbm, ⟨42, _⟩ => ⟨S64x8, .f32⟩
  | .hbm, ⟨43, _⟩ => ⟨S64x2, .f32⟩
  | .hbm, ⟨44, _⟩ => ⟨S1x2, .f32⟩
  | .hbm, ⟨45, _⟩ => ⟨S64x2, .f32⟩
  | .hbm, ⟨46, _⟩ => ⟨S64x2, .f32⟩
  | _, _ => ⟨S64x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S64x20000x16_0_1_2 : S1x1x16.BroadcastsInDim S64x20000x16 (![0, 1, 2] : Fin 3 → Fin S64x20000x16.rank)
  bcast_S_S64x20000x16 : S_.BroadcastsInDim S64x20000x16 (![] : Fin 0 → Fin S64x20000x16.rank)
  bcast_S8_S1x1x8_2 : S8.BroadcastsInDim S1x1x8 (![2] : Fin 1 → Fin S1x1x8.rank)
  bcast_S1x1x8_S64x20000x8_0_1_2 : S1x1x8.BroadcastsInDim S64x20000x8 (![0, 1, 2] : Fin 3 → Fin S64x20000x8.rank)
  bcast_S_S64x20000x8 : S_.BroadcastsInDim S64x20000x8 (![] : Fin 0 → Fin S64x20000x8.rank)
  bcast_S1_S1x1x1_2 : S1.BroadcastsInDim S1x1x1 (![2] : Fin 1 → Fin S1x1x1.rank)
  bcast_S1x1x1_S64x20000x1_0_1_2 : S1x1x1.BroadcastsInDim S64x20000x1 (![0, 1, 2] : Fin 3 → Fin S64x20000x1.rank)
  bcast_S_S64x20000x1 : S_.BroadcastsInDim S64x20000x1 (![] : Fin 0 → Fin S64x20000x1.rank)
  bcast_S64x20000x1_S64x20000x8_0_1_2 : S64x20000x1.BroadcastsInDim S64x20000x8 (![0, 1, 2] : Fin 3 → Fin S64x20000x8.rank)
  reducesTo_S64x20000x8_S64x8_d1 : S64x20000x8.ReducesTo [1] S64x8
  h_S_ : 0 < S_.numel
  reducesTo_S64x20000x1_S64x1_d1 : S64x20000x1.ReducesTo [1] S64x1
  bcast_S64x1_S64x8_0_1 : S64x1.BroadcastsInDim S64x8 (![0, 1] : Fin 2 → Fin S64x8.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S64x20000x64_S64x16_S64x20000x16_2_0_01_1_n_n_wf : DotDims.WF S64x20000x64 S64x16 S64x20000x16 [2] [0] [0, 1] [1] [] []
  dot_S64x20000x16_S16x8_S64x20000x8_2_0_01_1_n_n_wf : DotDims.WF S64x20000x16 S16x8 S64x20000x8 [2] [0] [0, 1] [1] [] []
  dot_S64x20000x8_S8x1_S64x20000x1_2_0_01_1_n_n_wf : DotDims.WF S64x20000x8 S8x1 S64x20000x1 [2] [0] [0, 1] [1] [] []
  dot_S64x8_S8x2_S64x2_1_0_0_1_n_n_wf : DotDims.WF S64x8 S8x2 S64x2 [1] [0] [0] [1] [] []

variable [Facts₀]

def dot_S64x20000x64_S64x16_S64x20000x16_2_0_01_1_n_n : DotDims S64x20000x64 S64x16 S64x20000x16 where
  lhsContracting := [2]
  rhsContracting := [0]
  lhsNonContracting := [0, 1]
  rhsNonContracting := [1]
  lhsBatch := []
  rhsBatch := []
  wf := dot_S64x20000x64_S64x16_S64x20000x16_2_0_01_1_n_n_wf
def dot_S64x20000x16_S16x8_S64x20000x8_2_0_01_1_n_n : DotDims S64x20000x16 S16x8 S64x20000x8 where
  lhsContracting := [2]
  rhsContracting := [0]
  lhsNonContracting := [0, 1]
  rhsNonContracting := [1]
  lhsBatch := []
  rhsBatch := []
  wf := dot_S64x20000x16_S16x8_S64x20000x8_2_0_01_1_n_n_wf
def dot_S64x20000x8_S8x1_S64x20000x1_2_0_01_1_n_n : DotDims S64x20000x8 S8x1 S64x20000x1 where
  lhsContracting := [2]
  rhsContracting := [0]
  lhsNonContracting := [0, 1]
  rhsNonContracting := [1]
  lhsBatch := []
  rhsBatch := []
  wf := dot_S64x20000x8_S8x1_S64x20000x1_2_0_01_1_n_n_wf
def dot_S64x8_S8x2_S64x2_1_0_0_1_n_n : DotDims S64x8 S8x2 S64x2 where
  lhsContracting := [1]
  rhsContracting := [0]
  lhsNonContracting := [0]
  rhsNonContracting := [1]
  lhsBatch := []
  rhsBatch := []
  wf := dot_S64x8_S8x2_S64x2_1_0_0_1_n_n_wf

class Facts : Prop extends Facts₀ where

variable [Facts]
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.Spec.lean ====
/-
  The function both programs compute, on the extended reals.

  A cell is a row of 64 features. Two affine layers, each followed by a maximum with zero, take it to 16 and then
  to 8 features; a third affine map takes those 8 to one number, whose logistic value is the cell's gate. A batch
  of 20000 cells is pooled: feature k of the pooled vector is the gate-weighted sum of feature k over the cells
  divided by the sum of the gates. A last affine map takes the 8 pooled features to 2 outputs.

  The cells can be visited in four runs of 5000: a finite sum in a commutative monoid does not depend on order or
  grouping, so the four partial sums, added one after the other, give the sum over all 20000 cells. No finiteness
  is needed for that: the extended reals are a commutative monoid under addition whatever the terms are.
-/
import Idealize.ShloMosaic.PureOps.Ideal
import Idealize.ShloMosaic.Lib.ValueIdx
import proofs.«171466_j69363721831001_2_alg».proof.Proof.LibTileSum

noncomputable section

namespace Cert.Pool

open Idealize.ShloMosaic Idealize.ShloMosaic.ValueIdx

/-- The weights of the three layers: 64 → 16, 16 → 8, 8 → 1, each with its bias. -/
structure Wts where
  w1 : Fin 64 → Fin 16 → EReal
  c1 : Fin 16 → EReal
  w2 : Fin 16 → Fin 8 → EReal
  c2 : Fin 8 → EReal
  ww : Fin 8 → EReal
  cw : EReal

/-- The float zero both programs clamp at (its word is never evaluated: both sides carry the same one). -/
abbrev zf : EReal := Ideal.ofBits .f32 0x00000000#32

/-- First hidden layer of one cell. -/
def hid1 (P : Wts) (x : Fin 64 → EReal) (h : Fin 16) : EReal := max ((∑ i : Fin 64, x i * P.w1 i h) + P.c1 h) zf

/-- Second hidden layer of one cell. -/
def hid2 (P : Wts) (x : Fin 64 → EReal) (k : Fin 8) : EReal := max ((∑ h : Fin 16, hid1 P x h * P.w2 h k) + P.c2 k) zf

/-- The cell's gate. -/
def gate (P : Wts) (x : Fin 64 → EReal) : EReal := Ideal.logistic ((∑ k : Fin 8, hid2 P x k * P.ww k) + P.cw)

/-- The gate-weighted sum of feature `k` over a batch's cells, -/
def num (P : Wts) (X : Fin 20000 → Fin 64 → EReal) (k : Fin 8) : EReal := ∑ n : Fin 20000, gate P (X n) * hid2 P (X n) k

/-- the sum of the gates, -/
def den (P : Wts) (X : Fin 20000 → Fin 64 → EReal) : EReal := ∑ n : Fin 20000, gate P (X n)

/-- and the pooled feature: their quotient. -/
def pooled (P : Wts) (X : Fin 20000 → Fin 64 → EReal) (k : Fin 8) : EReal := Ideal.div (num P X k) (den P X)

/-- The head: an affine map from the 8 pooled features to 2 outputs. -/
def head (W4 : Fin 8 → Fin 2 → EReal) (b4 : Fin 2 → EReal) (p : Fin 8 → EReal) (o : Fin 2) : EReal :=
  (∑ k : Fin 8, p k * W4 k o) + b4 o

/-! ## Four runs of 5000 cells -/

/-- Cell `r` of run `j` (for `j < 4` this is cell `5000 j + r`; the remainder only makes the function total). -/
def cell (j : ℕ) (r : Fin 5000) : Fin 20000 := ⟨(5000 * j + r.val) % 20000, Nat.mod_lt _ (by decide)⟩

theorem cell_val (j : ℕ) (hj : j < 4) (r : Fin 5000) : (cell j r).val = 5000 * j + r.val := by
  have := r.isLt
  show (5000 * j + r.val) % 20000 = _
  exact Nat.mod_eq_of_lt (by omega)

/-- The sum of `g` over run `j`. -/
def runSum (g : Fin 20000 → EReal) (j : ℕ) : EReal := ∑ r : Fin 5000, g (cell j r)

/-- The running total after run `j`. -/
def accSum (g : Fin 20000 → EReal) : ℕ → EReal
  | 0 => runSum g 0
  | j + 1 => accSum g j + runSum g (j + 1)

/-- After the fourth run the running total is the sum over all cells. -/
theorem accSum_three (g : Fin 20000 → EReal) : accSum g 3 = ∑ n : Fin 20000, g n := by
  rw [Cert.LibTileSum.sum_blocks (A := 4) (B := 5000) (by decide : 4 * 5000 = 20000) g, Fin.sum_univ_four]
  have e : ∀ (j : Fin 4), (∑ r : Fin 5000, g (Cert.LibTileSum.blk (by decide : 4 * 5000 = 20000) j r)) = runSum g j.val := fun j =>
    Finset.sum_congr rfl fun r _ => congrArg g (Fin.ext ((cell_val j.val j.isLt r).symm ▸ rfl))
  rw [e 0, e 1, e 2, e 3]
  rfl

/-- The summand of the numerator. -/
abbrev numTerm (P : Wts) (X : Fin 20000 → Fin 64 → EReal) (k : Fin 8) (n : Fin 20000) : EReal := gate P (X n) * hid2 P (X n) k
/-- The summand of the denominator. -/
abbrev denTerm (P : Wts) (X : Fin 20000 → Fin 64 → EReal) (n : Fin 20000) : EReal := gate P (X n)

theorem num_eq_acc (P : Wts) (X : Fin 20000 → Fin 64 → EReal) (k : Fin 8) : num P X k = accSum (numTerm P X k) 3 :=
  (accSum_three _).symm
theorem den_eq_acc (P : Wts) (X : Fin 20000 → Fin 64 → EReal) : den P X = accSum (denTerm P X) 3 :=
  (accSum_three _).symm

/-! ## The result as one function of the nine argument arrays -/

/-- The layers' weights read off the argument arrays. -/
def wts (x1 : (⟨2, ![64, 16]⟩ : Shape).Idx → EReal) (x2 : (⟨1, ![16]⟩ : Shape).Idx → EReal)
    (x3 : (⟨2, ![16, 8]⟩ : Shape).Idx → EReal) (x4 : (⟨1, ![8]⟩ : Shape).Idx → EReal)
    (x5 : (⟨2, ![8, 1]⟩ : Shape).Idx → EReal) (x6 : (⟨1, ![1]⟩ : Shape).Idx → EReal) : Wts where
  w1 i h := x1 (ix2 i h)
  c1 h := x2 (ix1 h)
  w2 h k := x3 (ix2 h k)
  c2 k := x4 (ix1 k)
  ww k := x5 (ix2 k (0 : Fin 1))
  cw := x6 (ix1 (0 : Fin 1))

/-- The cells of batch `b`. -/
def cells (x0 : (⟨3, ![64, 20000, 64]⟩ : Shape).Idx → EReal) (b : Fin 64) (n : Fin 20000) (i : Fin 64) : EReal :=
  x0 (ix3 b n i)

/-- Entry `(b, o)` of the result: output `o` of the head applied to the pooled features of batch `b`. -/
def result (x0 : (⟨3, ![64, 20000, 64]⟩ : Shape).Idx → EReal) (x1 : (⟨2, ![64, 16]⟩ : Shape).Idx → EReal)
    (x2 : (⟨1, ![16]⟩ : Shape).Idx → EReal) (x3 : (⟨2, ![16, 8]⟩ : Shape).Idx → EReal) (x4 : (⟨1, ![8]⟩ : Shape).Idx → EReal)
    (x5 : (⟨2, ![8, 1]⟩ : Shape).Idx → EReal) (x6 : (⟨1, ![1]⟩ : Shape).Idx → EReal)
    (x7 : (⟨2, ![8, 2]⟩ : Shape).Idx → EReal) (x8 : (⟨1, ![2]⟩ : Shape).Idx → EReal) :
    (⟨2, ![64, 2]⟩ : Shape).Idx → EReal := fun j =>
  head (fun k o => x7 (ix2 k o)) (fun o => x8 (ix1 o)) (pooled (wts x1 x2 x3 x4 x5 x6) (cells x0 (j 0))) (j 1)

end Cert.Pool

end
-- ==== Proof.RefStages.lean ====
/-
  The reference program read one stage at a time.

  Each lemma below reads one layer of the reference at an index given by its coordinates and identifies it with the
  corresponding layer of the specification: the two hidden layers of a cell, the cell's gate, the gate-weighted sum and
  the sum of the gates over a batch's cells, their quotient, and the final affine map. The float zero the two maxima
  clamp at is carried along unevaluated; the float zero the two sums start from is the extended real zero, and the
  float one of the gate is the extended real one, so the gate is the logistic function.
-/
import proofs.«171466_j69363721831001_2_alg».proof.Proof.Gen.ReferenceIdeal.Run
import proofs.«171466_j69363721831001_2_alg».proof.Proof.Gen.ReferenceIdeal.Read
import proofs.«171466_j69363721831001_2_alg».proof.Proof.Spec
import Idealize.ShloMosaic.Lib.ValueIdx
import Idealize.ShloMosaic.PureOps.Ideal.Laws

noncomputable section

namespace Cert.Pool.Ref

open Cert.ReferenceIdeal Cert.ReferenceIdeal.Read Idealize.ShloMosaic Idealize.ShloMosaic.ValueIdx

/-- The float word of 1.0 is the extended real 1. -/
theorem ofBits_one_f32 : Ideal.ofBits .f32 0x3F800000#32 = 1 := IdealRules.sign_bit.ideal_onePat .f32

variable (x0 : (⟨S64x20000x64, .f32⟩ : BufTy).Contents (Elt Ideal)) (x1 : (⟨S64x16, .f32⟩ : BufTy).Contents (Elt Ideal)) (x2 : (⟨S16, .f32⟩ : BufTy).Contents (Elt Ideal)) (x3 : (⟨S16x8, .f32⟩ : BufTy).Contents (Elt Ideal)) (x4 : (⟨S8, .f32⟩ : BufTy).Contents (Elt Ideal)) (x5 : (⟨S8x1, .f32⟩ : BufTy).Contents (Elt Ideal)) (x6 : (⟨S1, .f32⟩ : BufTy).Contents (Elt Ideal))

/-! ## First hidden layer -/

/-- The first product's left operand at output `(b, n, h)` and contraction coordinate `k` is input `(b, n, k)`. -/
theorem lidx0 (b : Fin 64) (n : Fin 20000) (h : Fin 16) (k : Fin 64) : lidx_main_v0 (ix3 b n h) k = ix3 b n k :=
  funext fun a => Fin.ext (by match a with | ⟨0, _⟩ => rfl | ⟨1, _⟩ => rfl | ⟨2, _⟩ => rfl)
/-- Its right operand is entry `(k, h)` of the first weight matrix. -/
theorem ridx0 (b : Fin 64) (n : Fin 20000) (h : Fin 16) (k : Fin 64) : ridx_main_v0 (ix3 b n h) k = ix2 k h :=
  funext fun a => Fin.ext (by match a with | ⟨0, _⟩ => rfl | ⟨1, _⟩ => rfl)
/-- The first bias, broadcast along batch and cell, is read at `h`. -/
theorem bidx1 (b : Fin 64) (n : Fin 20000) (h : Fin 16) : idx_main_v1 (idx_main_v2 (ix3 b n h)) = ix1 h :=
  funext fun a => Fin.ext (by match a with | ⟨0, _⟩ => rfl)

/-- Feature `h` of the first hidden layer of cell `n` of batch `b`: the sum over the 64 inputs of input times weight,
    plus the bias, clamped below at the float zero. -/
theorem hid1_stage (b : Fin 64) (n : Fin 20000) (h : Fin 16) :
    val_main_v4 (F := Ideal) x0 x1 x2 (ix3 b n h) = Cert.Pool.hid1 (wts x1 x2 x3 x4 x5 x6) (cells x0 b n) h := by
  rw [val_main_v4_apply, val_main_v3_apply, val_main_v0_apply, val_main_v2_apply, val_main_v1_apply,
    val_main_call0_v0_apply, val_main_call0_cst_apply, bidx1]
  simp only [lidx0, ridx0]
  rfl

/-! ## Second hidden layer -/

/-- The second product's left operand at output `(b, n, k)` and contraction coordinate `h` is feature `(b, n, h)`. -/
theorem lidx5 (b : Fin 64) (n : Fin 20000) (k : Fin 8) (h : Fin 16) : lidx_main_v5 (ix3 b n k) h = ix3 b n h :=
  funext fun a => Fin.ext (by match a with | ⟨0, _⟩ => rfl | ⟨1, _⟩ => rfl | ⟨2, _⟩ => rfl)
/-- Its right operand is entry `(h, k)` of the second weight matrix. -/
theorem ridx5 (b : Fin 64) (n : Fin 20000) (k : Fin 8) (h : Fin 16) : ridx_main_v5 (ix3 b n k) h = ix2 h k :=
  funext fun a => Fin.ext (by match a with | ⟨0, _⟩ => rfl | ⟨1, _⟩ => rfl)
/-- The second bias, broadcast along batch and cell, is read at `k`. -/
theorem bidx6 (b : Fin 64) (n : Fin 20000) (k : Fin 8) : idx_main_v6 (idx_main_v7 (ix3 b n k)) = ix1 k :=
  funext fun a => Fin.ext (by match a with | ⟨0, _⟩ => rfl)

/-- Feature `k` of the second hidden layer of cell `n` of batch `b`: the sum over the 16 first-layer features of
    feature times weight, plus the bias, clamped below at the float zero. -/
theorem hid2_stage (b : Fin 64) (n : Fin 20000) (k : Fin 8) :
    val_main_v9 (F := Ideal) x0 x1 x2 x3 x4 (ix3 b n k) = Cert.Pool.hid2 (wts x1 x2 x3 x4 x5 x6) (cells x0 b n) k := by
  rw [val_main_v9_apply, val_main_v8_apply, val_main_v5_apply, val_main_v7_apply, val_main_v6_apply,
    val_main_call1_v0_apply, val_main_call1_cst_apply, bidx6]
  simp only [lidx5, ridx5, hid1_stage x0 x1 x2 x3 x4 x5 x6]
  rfl

/-! ## The gate -/

/-- The third product's left operand at output `(b, n, 0)` and contraction coordinate `k` is feature `(b, n, k)`. -/
theorem lidx10 (b : Fin 64) (n : Fin 20000) (k : Fin 8) : lidx_main_v10 (ix3 b n (0 : Fin 1)) k = ix3 b n k :=
  funext fun a => Fin.ext (by match a with | ⟨0, _⟩ => rfl | ⟨1, _⟩ => rfl | ⟨2, _⟩ => rfl)
/-- Its right operand is entry `(k, 0)` of the gate's weight column. -/
theorem ridx10 (b : Fin 64) (n : Fin 20000) (k : Fin 8) : ridx_main_v10 (ix3 b n (0 : Fin 1)) k = ix2 k (0 : Fin 1) :=
  funext fun a => Fin.ext (by match a with | ⟨0, _⟩ => rfl | ⟨1, _⟩ => rfl)
/-- The gate's bias, broadcast along batch and cell, is read at its one entry. -/
theorem bidx11 (b : Fin 64) (n : Fin 20000) : idx_main_v11 (idx_main_v12 (ix3 b n (0 : Fin 1))) = ix1 (0 : Fin 1) :=
  funext fun a => Fin.ext (by match a with | ⟨0, _⟩ => rfl)

/-- The gate of cell `n` of batch `b`: one over one plus the exponential of minus the affine image of the second
    hidden layer, which is the logistic function of that image. -/
theorem gate_stage (b : Fin 64) (n : Fin 20000) :
    val_main_v19 (F := Ideal) x0 x1 x2 x3 x4 x5 x6 (ix3 b n (0 : Fin 1)) = Cert.Pool.gate (wts x1 x2 x3 x4 x5 x6) (cells x0 b n) := by
  rw [val_main_v19_apply, val_main_v18_apply, val_main_cst_0_apply, val_main_v17_apply, val_main_v16_apply,
    val_main_cst_apply, val_main_v15_apply, val_main_v14_apply, val_main_v13_apply, val_main_v10_apply,
    val_main_v12_apply, val_main_v11_apply, bidx11]
  simp only [lidx10, ridx10, hid2_stage x0 x1 x2 x3 x4 x5 x6]
  rw [Ideal.hostDivf_def, Ideal.addf_def, Ideal.hostUnary_exp_def, Ideal.hostNegf_def, Ideal.negf_def, Ideal.addf_def,
    Ideal.ofBits_def, ofBits_one_f32]
  rfl

/-! ## The two sums over a batch's cells -/

/-- The gate, broadcast along the 8 features, is read at `(b, n, 0)`. -/
theorem bidx20 (b : Fin 64) (n : Fin 20000) (k : Fin 8) : idx_main_v20 (ix3 b n k) = ix3 b n (0 : Fin 1) :=
  funext fun a => Fin.ext (by match a with | ⟨0, _⟩ => rfl | ⟨1, _⟩ => rfl | ⟨2, _⟩ => rfl)
/-- Term `n` of the first sum at output `(b, k)` is entry `(b, n, k)`. -/
theorem sidx22 (b : Fin 64) (k : Fin 8) (n : Fin 20000) : idx_main_v22 (ix2 b k) n = ix3 b n k :=
  funext fun a => Fin.ext (by match a with | ⟨0, _⟩ => rfl | ⟨1, _⟩ => rfl | ⟨2, _⟩ => rfl)
/-- Term `n` of the second sum at output `(b, 0)` is entry `(b, n, 0)`. -/
theorem sidx23 (b : Fin 64) (n : Fin 20000) : idx_main_v23 (ix2 b (0 : Fin 1)) n = ix3 b n (0 : Fin 1) :=
  funext fun a => Fin.ext (by match a with | ⟨0, _⟩ => rfl | ⟨1, _⟩ => rfl | ⟨2, _⟩ => rfl)

/-- The gate-weighted sum of feature `k` over the 20000 cells of batch `b` (the sum starts from the float zero,
    which is the extended real zero). -/
theorem num_stage (b : Fin 64) (k : Fin 8) :
    val_main_v22 (F := Ideal) x0 x1 x2 x3 x4 x5 x6 (ix2 b k) = Cert.Pool.num (wts x1 x2 x3 x4 x5 x6) (cells x0 b) k := by
  rw [val_main_v22_apply, val_main_cst_1_apply, Ideal.ofBits_def, Ideal.ofBits_zero_f32, zero_add]
  refine Finset.sum_congr rfl fun n _ => ?_
  rw [sidx22, val_main_v21_apply, val_main_v20_apply, bidx20, gate_stage x0 x1 x2 x3 x4 x5 x6,
    hid2_stage x0 x1 x2 x3 x4 x5 x6, Ideal.mulf_def]

/-- The sum of the gates over the 20000 cells of batch `b`. -/
theorem den_stage (b : Fin 64) :
    val_main_v23 (F := Ideal) x0 x1 x2 x3 x4 x5 x6 (ix2 b (0 : Fin 1)) = Cert.Pool.den (wts x1 x2 x3 x4 x5 x6) (cells x0 b) := by
  rw [val_main_v23_apply, val_main_cst_2_apply, Ideal.ofBits_def, Ideal.ofBits_zero_f32, zero_add]
  refine Finset.sum_congr rfl fun n _ => ?_
  rw [sidx23, gate_stage x0 x1 x2 x3 x4 x5 x6]

/-! ## The pooled features -/

/-- The sum of the gates, broadcast along the 8 features, is read at `(b, 0)`. -/
theorem bidx24 (b : Fin 64) (k : Fin 8) : idx_main_v24 (ix2 b k) = ix2 b (0 : Fin 1) :=
  funext fun a => Fin.ext (by match a with | ⟨0, _⟩ => rfl | ⟨1, _⟩ => rfl)

/-- Pooled feature `k` of batch `b`: the gate-weighted sum divided by the sum of the gates. -/
theorem pooled_stage (b : Fin 64) (k : Fin 8) :
    val_main_v25 (F := Ideal) x0 x1 x2 x3 x4 x5 x6 (ix2 b k) = Cert.Pool.pooled (wts x1 x2 x3 x4 x5 x6) (cells x0 b) k := by
  rw [val_main_v25_apply, val_main_v24_apply, bidx24, num_stage x0 x1 x2 x3 x4 x5 x6, den_stage x0 x1 x2 x3 x4 x5 x6,
    Ideal.hostDivf_def]
  rfl

/-! ## The head -/

/-- The last product's left operand at output `(b, o)` and contraction coordinate `k` is pooled feature `(b, k)`. -/
theorem lidx26 (b : Fin 64) (o : Fin 2) (k : Fin 8) : lidx_main_v26 (ix2 b o) k = ix2 b k :=
  funext fun a => Fin.ext (by match a with | ⟨0, _⟩ => rfl | ⟨1, _⟩ => rfl)
/-- Its right operand is entry `(k, o)` of the head's weight matrix. -/
theorem ridx26 (b : Fin 64) (o : Fin 2) (k : Fin 8) : ridx_main_v26 (ix2 b o) k = ix2 k o :=
  funext fun a => Fin.ext (by match a with | ⟨0, _⟩ => rfl | ⟨1, _⟩ => rfl)
/-- The head's bias, broadcast along the batches, is read at `o`. -/
theorem bidx27 (b : Fin 64) (o : Fin 2) : idx_main_v27 (idx_main_v28 (ix2 b o)) = ix1 o :=
  funext fun a => Fin.ext (by match a with | ⟨0, _⟩ => rfl)

variable (x7 : (⟨S8x2, .f32⟩ : BufTy).Contents (Elt Ideal)) (x8 : (⟨S2, .f32⟩ : BufTy).Contents (Elt Ideal))

/-- The reference's result is the specification's: entry `(b, o)` is output `o` of the head applied to the pooled
    features of batch `b`. -/
theorem ref_is_result :
    val_main_v29 (F := Ideal) x0 x1 x2 x3 x4 x5 x6 x7 x8 = Cert.Pool.result x0 x1 x2 x3 x4 x5 x6 x7 x8 := by
  funext j
  obtain ⟨b, o, rfl⟩ : ∃ (b : Fin 64) (o : Fin 2), j = ix2 b o := ⟨j 0, j 1, eq_ix2 j⟩
  rw [val_main_v29_apply, val_main_v26_apply, val_main_v28_apply, val_main_v27_apply, bidx27, Ideal.addf_def]
  simp only [lidx26, ridx26, pooled_stage x0 x1 x2 x3 x4 x5 x6]
  rfl

end Cert.Pool.Ref

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KernelCell.lean ====
/-
  The kernel's arithmetic on one run of 5000 cells, read entry by entry on the extended reals.

  The body holds the run as a 5000 × 64 block and keeps every intermediate feature-major: the first layer is the
  16 × 5000 matrix whose entry (h, r) is feature h of cell r, the second the 8 × 5000 matrix of entries (k, r), the
  gate a 1 × 5000 row. Each matrix product contracts the shared feature axis, so its entry is the sum over that axis
  of the products of the two operands' entries; a change of float format is the identity here. Read at (k, r) the
  8 × 5000 matrix is the second hidden layer of cell r, and the row at r is the cell's gate. The two lane sums then
  add, to what the accumulators held, the run's share of the numerator and of the denominator.
-/
import proofs.«171466_j69363721831001_2_alg».proof.Proof.Gen.KernelIdeal.Skeleton
import proofs.«171466_j69363721831001_2_alg».proof.Proof.Spec
import proofs.«171466_j69363721831001_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.Pool.Ker

open Idealize.ShloMosaic Idealize.ShloMosaic.ValueIdx Cert.KernelIdeal Cert.KernelIdeal.Gen

/-! ## The three matrix products at an entry -/

theorem mm1_apply_l (j : S16x5000.Idx) (q : dot_S64x16_S5000x64_S16x5000_0_1_1_0_n_n.contr.Idx) : (dot_S64x16_S5000x64_S16x5000_0_1_1_0_n_n.lhsIdx j q 1).val = (j 0).val := by
  unfold DotDims.lhsIdx
  rw [dif_neg (show ¬(1 : Fin S64x16.rank) ∈ dot_S64x16_S5000x64_S16x5000_0_1_1_0_n_n.lhsBatch by decide), dif_pos (show (1 : Fin S64x16.rank) ∈ dot_S64x16_S5000x64_S16x5000_0_1_1_0_n_n.lhsNonContracting by decide)]
  rfl
theorem mm1_apply_r (j : S16x5000.Idx) (q : dot_S64x16_S5000x64_S16x5000_0_1_1_0_n_n.contr.Idx) : (dot_S64x16_S5000x64_S16x5000_0_1_1_0_n_n.rhsIdx j q 0).val = (j 1).val := by
  unfold DotDims.rhsIdx
  rw [dif_neg (show ¬(0 : Fin S5000x64.rank) ∈ dot_S64x16_S5000x64_S16x5000_0_1_1_0_n_n.rhsBatch by decide), dif_pos (show (0 : Fin S5000x64.rank) ∈ dot_S64x16_S5000x64_S16x5000_0_1_1_0_n_n.rhsNonContracting by decide)]
  rfl
/-- First layer: weights 64 × 16 against the block 5000 × 64, both contracted over the 64 input features; entry (h, r) sums over them. -/
theorem mm1_apply (A : FVec Ideal S64x16 .bf16) (B : FVec Ideal S5000x64 .bf16) (a : Fin 16) (b : Fin 5000) :
    FloatOps.matmul dot_S64x16_S5000x64_S16x5000_0_1_1_0_n_n none A B (constant (F := Ideal) S16x5000 .f32 0x00000000#32) (ix2 a b)
      = ∑ q : Fin 64, A (ix2 q a) * B (ix2 b q) := by
  rw [Ideal.matmul_constant_zero_apply, ← Equiv.sum_comp (ValueIdx.contrEquiv1 dot_S64x16_S5000x64_S16x5000_0_1_1_0_n_n 64 rfl rfl).symm]
  refine Finset.sum_congr rfl fun q _ => ?_
  have hq := ValueIdx.contrEquiv1_symm_val dot_S64x16_S5000x64_S16x5000_0_1_1_0_n_n 64 rfl rfl q
  have el : dot_S64x16_S5000x64_S16x5000_0_1_1_0_n_n.lhsIdx (ix2 a b) ((ValueIdx.contrEquiv1 dot_S64x16_S5000x64_S16x5000_0_1_1_0_n_n 64 rfl rfl).symm q) = ix2 q a := funext fun ax => Fin.ext (by
    match ax with
    | ⟨0, _⟩ => exact (dot_S64x16_S5000x64_S16x5000_0_1_1_0_n_n.lhsIdx_val_of_single rfl _ _).trans hq
    | ⟨1, _⟩ => exact mm1_apply_l _ _)
  have er : dot_S64x16_S5000x64_S16x5000_0_1_1_0_n_n.rhsIdx (ix2 a b) ((ValueIdx.contrEquiv1 dot_S64x16_S5000x64_S16x5000_0_1_1_0_n_n 64 rfl rfl).symm q) = ix2 b q := funext fun ax => Fin.ext (by
    match ax with
    | ⟨1, _⟩ => exact (dot_S64x16_S5000x64_S16x5000_0_1_1_0_n_n.rhsIdx_val_of_single rfl _ _).trans hq
    | ⟨0, _⟩ => exact mm1_apply_r _ _)
  rw [el, er]

theorem mm2_apply_l (j : S8x5000.Idx) (q : dot_S16x8_S16x5000_S8x5000_0_0_1_1_n_n.contr.Idx) : (dot_S16x8_S16x5000_S8x5000_0_0_1_1_n_n.lhsIdx j q 1).val = (j 0).val := by
  unfold DotDims.lhsIdx
  rw [dif_neg (show ¬(1 : Fin S16x8.rank) ∈ dot_S16x8_S16x5000_S8x5000_0_0_1_1_n_n.lhsBatch by decide), dif_pos (show (1 : Fin S16x8.rank) ∈ dot_S16x8_S16x5000_S8x5000_0_0_1_1_n_n.lhsNonContracting by decide)]
  rfl
theorem mm2_apply_r (j : S8x5000.Idx) (q : dot_S16x8_S16x5000_S8x5000_0_0_1_1_n_n.contr.Idx) : (dot_S16x8_S16x5000_S8x5000_0_0_1_1_n_n.rhsIdx j q 1).val = (j 1).val := by
  unfold DotDims.rhsIdx
  rw [dif_neg (show ¬(1 : Fin S16x5000.rank) ∈ dot_S16x8_S16x5000_S8x5000_0_0_1_1_n_n.rhsBatch by decide), dif_pos (show (1 : Fin S16x5000.rank) ∈ dot_S16x8_S16x5000_S8x5000_0_0_1_1_n_n.rhsNonContracting by decide)]
  rfl
/-- Second layer: weights 16 × 8 against the 16 × 5000 first layer, contracted over the 16 features; entry (k, r). -/
theorem mm2_apply (A : FVec Ideal S16x8 .bf16) (B : FVec Ideal S16x5000 .bf16) (a : Fin 8) (b : Fin 5000) :
    FloatOps.matmul dot_S16x8_S16x5000_S8x5000_0_0_1_1_n_n none A B (constant (F := Ideal) S8x5000 .f32 0x00000000#32) (ix2 a b)
      = ∑ q : Fin 16, A (ix2 q a) * B (ix2 q b) := by
  rw [Ideal.matmul_constant_zero_apply, ← Equiv.sum_comp (ValueIdx.contrEquiv1 dot_S16x8_S16x5000_S8x5000_0_0_1_1_n_n 16 rfl rfl).symm]
  refine Finset.sum_congr rfl fun q _ => ?_
  have hq := ValueIdx.contrEquiv1_symm_val dot_S16x8_S16x5000_S8x5000_0_0_1_1_n_n 16 rfl rfl q
  have el : dot_S16x8_S16x5000_S8x5000_0_0_1_1_n_n.lhsIdx (ix2 a b) ((ValueIdx.contrEquiv1 dot_S16x8_S16x5000_S8x5000_0_0_1_1_n_n 16 rfl rfl).symm q) = ix2 q a := funext fun ax => Fin.ext (by
    match ax with
    | ⟨0, _⟩ => exact (dot_S16x8_S16x5000_S8x5000_0_0_1_1_n_n.lhsIdx_val_of_single rfl _ _).trans hq
    | ⟨1, _⟩ => exact mm2_apply_l _ _)
  have er : dot_S16x8_S16x5000_S8x5000_0_0_1_1_n_n.rhsIdx (ix2 a b) ((ValueIdx.contrEquiv1 dot_S16x8_S16x5000_S8x5000_0_0_1_1_n_n 16 rfl rfl).symm q) = ix2 q b := funext fun ax => Fin.ext (by
    match ax with
    | ⟨0, _⟩ => exact (dot_S16x8_S16x5000_S8x5000_0_0_1_1_n_n.rhsIdx_val_of_single rfl _ _).trans hq
    | ⟨1, _⟩ => exact mm2_apply_r _ _)
  rw [el, er]

theorem mm3_apply_l (j : S1x5000.Idx) (q : dot_S8x1_S8x5000_S1x5000_0_0_1_1_n_n.contr.Idx) : (dot_S8x1_S8x5000_S1x5000_0_0_1_1_n_n.lhsIdx j q 1).val = (j 0).val := by
  unfold DotDims.lhsIdx
  rw [dif_neg (show ¬(1 : Fin S8x1.rank) ∈ dot_S8x1_S8x5000_S1x5000_0_0_1_1_n_n.lhsBatch by decide), dif_pos (show (1 : Fin S8x1.rank) ∈ dot_S8x1_S8x5000_S1x5000_0_0_1_1_n_n.lhsNonContracting by decide)]
  rfl
theorem mm3_apply_r (j : S1x5000.Idx) (q : dot_S8x1_S8x5000_S1x5000_0_0_1_1_n_n.contr.Idx) : (dot_S8x1_S8x5000_S1x5000_0_0_1_1_n_n.rhsIdx j q 1).val = (j 1).val := by
  unfold DotDims.rhsIdx
  rw [dif_neg (show ¬(1 : Fin S8x5000.rank) ∈ dot_S8x1_S8x5000_S1x5000_0_0_1_1_n_n.rhsBatch by decide), dif_pos (show (1 : Fin S8x5000.rank) ∈ dot_S8x1_S8x5000_S1x5000_0_0_1_1_n_n.rhsNonContracting by decide)]
  rfl
/-- Gate logit: weights 8 × 1 against the 8 × 5000 second layer, contracted over the 8 features; entry (0, r). -/
theorem mm3_apply (A : FVec Ideal S8x1 .bf16) (B : FVec Ideal S8x5000 .bf16) (a : Fin 1) (b : Fin 5000) :
    FloatOps.matmul dot_S8x1_S8x5000_S1x5000_0_0_1_1_n_n none A B (constant (F := Ideal) S1x5000 .f32 0x00000000#32) (ix2 a b)
      = ∑ q : Fin 8, A (ix2 q a) * B (ix2 q b) := by
  rw [Ideal.matmul_constant_zero_apply, ← Equiv.sum_comp (ValueIdx.contrEquiv1 dot_S8x1_S8x5000_S1x5000_0_0_1_1_n_n 8 rfl rfl).symm]
  refine Finset.sum_congr rfl fun q _ => ?_
  have hq := ValueIdx.contrEquiv1_symm_val dot_S8x1_S8x5000_S1x5000_0_0_1_1_n_n 8 rfl rfl q
  have el : dot_S8x1_S8x5000_S1x5000_0_0_1_1_n_n.lhsIdx (ix2 a b) ((ValueIdx.contrEquiv1 dot_S8x1_S8x5000_S1x5000_0_0_1_1_n_n 8 rfl rfl).symm q) = ix2 q a := funext fun ax => Fin.ext (by
    match ax with
    | ⟨0, _⟩ => exact (dot_S8x1_S8x5000_S1x5000_0_0_1_1_n_n.lhsIdx_val_of_single rfl _ _).trans hq
    | ⟨1, _⟩ => exact mm3_apply_l _ _)
  have er : dot_S8x1_S8x5000_S1x5000_0_0_1_1_n_n.rhsIdx (ix2 a b) ((ValueIdx.contrEquiv1 dot_S8x1_S8x5000_S1x5000_0_0_1_1_n_n 8 rfl rfl).symm q) = ix2 q b := funext fun ax => Fin.ext (by
    match ax with
    | ⟨0, _⟩ => exact (dot_S8x1_S8x5000_S1x5000_0_0_1_1_n_n.rhsIdx_val_of_single rfl _ _).trans hq
    | ⟨1, _⟩ => exact mm3_apply_r _ _)
  rw [el, er]

/-! ## Layout steps at an entry -/

/-- The 1 × 5000 × 64 block as a 5000 × 64 matrix: entry (r, i) is entry (0, r, i). -/
theorem block_apply (x0 : Vec Ideal S1x5000x64 .f32) (r : Fin 5000) (i : Fin 64) :
    shapeCast S5000x64 x0 shapeCasts_S1x5000x64_S5000x64 (ix2 r i) = x0 (ix3 (0 : Fin 1) r i) :=
  shapeCast_apply x0 _ _ _ (by
    rw [Shape.rowMajor_val_three, Shape.rowMajor_val_two]
    show ((0 : ℕ) * 5000 + r.val) * 64 + i.val = r.val * 64 + i.val
    omega)

/-- A 1 × 5000 row repeated over 8 rows: entry (k, r) is entry (0, r). -/
theorem rows_apply (v : FVec Ideal S1x5000 .f32) (k : Fin 8) (r : Fin 5000) :
    broadcastTo S8x5000 v broadcasts_S1x5000_S8x5000 (ix2 k r) = v (ix2 (0 : Fin 1) r) :=
  broadcastTo_apply v _ (ix2 k r) (ix2 (0 : Fin 1) r) (fun ax => by
    match ax with
    | ⟨0, _⟩ => exact (if_pos rfl).symm
    | ⟨1, _⟩ =>
      show r.val = if (5000 : ℕ) = 1 then 0 else r.val
      rw [if_neg (by decide)])

/-- A 1 × 1 array repeated over 8 rows: entry (k, 0) is entry (0, 0). -/
theorem one_rows_apply (v : Vec Ideal S1x1 .f32) (k : Fin 8) :
    broadcastTo S8x1 v broadcasts_S1x1_S8x1 (ix2 k (0 : Fin 1)) = v (ix2 (0 : Fin 1) (0 : Fin 1)) :=
  broadcastTo_apply v _ (ix2 k (0 : Fin 1)) (ix2 (0 : Fin 1) (0 : Fin 1)) (fun ax => by
    match ax with
    | ⟨0, _⟩ => exact (if_pos rfl).symm
    | ⟨1, _⟩ => exact (if_pos rfl).symm)

/-- An 8 × 1 column as a 1 × 8 × 1 array: entry (0, k, 0) is entry (k, 0). -/
theorem col3_apply (v : FVec Ideal S8x1 .f32) (k : Fin 8) :
    shapeCast S1x8x1 v shapeCasts_S8x1_S1x8x1 (ix3 (0 : Fin 1) k (0 : Fin 1)) = v (ix2 k (0 : Fin 1)) :=
  shapeCast_apply v _ _ _ (by
    rw [Shape.rowMajor_val_three, Shape.rowMajor_val_two]
    show k.val * 1 + (0 : ℕ) = ((0 : ℕ) * 8 + k.val) * 1 + 0
    omega)

/-! ## The weights and the cells as the body finds them -/

/-- The layers' weights read off the body's blocks: the biases arrive as columns. -/
def kwts (x1 : Vec Ideal S64x16 .f32) (x2 : Vec Ideal S16x1 .f32) (x3 : Vec Ideal S16x8 .f32) (x4 : Vec Ideal S8x1 .f32)
    (x5 : Vec Ideal S8x1 .f32) (x6 : Vec Ideal S1x1 .f32) : Wts where
  w1 i h := x1 (ix2 i h)
  c1 h := x2 (ix2 h (0 : Fin 1))
  w2 h k := x3 (ix2 h k)
  c2 k := x4 (ix2 k (0 : Fin 1))
  ww k := x5 (ix2 k (0 : Fin 1))
  cw := x6 (ix2 (0 : Fin 1) (0 : Fin 1))

/-- Cell `r` of the block. -/
def krow (x0 : Vec Ideal S1x5000x64 .f32) (r : Fin 5000) (i : Fin 64) : EReal := x0 (ix3 (0 : Fin 1) r i)

/-! ## The three stages of the body -/

/-- The first hidden layer, feature-major. -/
def H1 (x0 : Vec Ideal S1x5000x64 .f32) (x1 : Vec Ideal S64x16 .f32) (x2 : Vec Ideal S16x1 .f32) : FVec Ideal S16x5000 .f32 :=
  maximumf (addf (matmul dot_S64x16_S5000x64_S16x5000_0_1_1_0_n_n none (truncf .bf16 x1 bitsLt_bf16_f32)
      (truncf .bf16 (shapeCast S5000x64 x0 shapeCasts_S1x5000x64_S5000x64) bitsLt_bf16_f32) (constant S16x5000 .f32 0x00000000#32))
    (broadcastTo S16x5000 (shapeCast S16x1 x2 shapeCasts_S16x1_S16x1) broadcasts_S16x1_S16x5000))
    (broadcast S16x5000 (Scalar.ofBits .f32 0x00000000#32))

/-- The second hidden layer, feature-major. -/
def H2 (x0 : Vec Ideal S1x5000x64 .f32) (x1 : Vec Ideal S64x16 .f32) (x2 : Vec Ideal S16x1 .f32) (x3 : Vec Ideal S16x8 .f32)
    (x4 : Vec Ideal S8x1 .f32) : FVec Ideal S8x5000 .f32 :=
  maximumf (addf (matmul dot_S16x8_S16x5000_S8x5000_0_0_1_1_n_n none (truncf .bf16 x3 bitsLt_bf16_f32)
      (truncf .bf16 (H1 x0 x1 x2) bitsLt_bf16_f32) (constant S8x5000 .f32 0x00000000#32))
    (broadcastTo S8x5000 (shapeCast S8x1 x4 shapeCasts_S8x1_S8x1) broadcasts_S8x1_S8x5000))
    (broadcast S8x5000 (Scalar.ofBits .f32 0x00000000#32))

/-- The gates of the run, a row. -/
def GT (x0 : Vec Ideal S1x5000x64 .f32) (x1 : Vec Ideal S64x16 .f32) (x2 : Vec Ideal S16x1 .f32) (x3 : Vec Ideal S16x8 .f32)
    (x4 : Vec Ideal S8x1 .f32) (x5 : Vec Ideal S8x1 .f32) (x6 : Vec Ideal S1x1 .f32) : FVec Ideal S1x5000 .f32 :=
  logistic (addf (matmul dot_S8x1_S8x5000_S1x5000_0_0_1_1_n_n none (truncf .bf16 x5 bitsLt_bf16_f32)
      (truncf .bf16 (H2 x0 x1 x2 x3 x4) bitsLt_bf16_f32) (constant S1x5000 .f32 0x00000000#32))
    (broadcastTo S1x5000 (shapeCast S1x1 x6 shapeCasts_S1x1_S1x1) broadcasts_S1x1_S1x5000))

/-- The body's names for them. -/
theorem pay6_eq (x0 : Vec Ideal S1x5000x64 .f32) (x1 : Vec Ideal S64x16 .f32) (x2 : Vec Ideal S16x1 .f32) (x3 : Vec Ideal S16x8 .f32)
    (x4 : Vec Ideal S8x1 .f32) : k0_pay6 (F := Ideal) x0 x1 x2 x3 x4 = H2 x0 x1 x2 x3 x4 := rfl
theorem pay7_eq (x0 : Vec Ideal S1x5000x64 .f32) (x1 : Vec Ideal S64x16 .f32) (x2 : Vec Ideal S16x1 .f32) (x3 : Vec Ideal S16x8 .f32)
    (x4 : Vec Ideal S8x1 .f32) (x5 : Vec Ideal S8x1 .f32) (x6 : Vec Ideal S1x1 .f32) :
    k0_pay7 (F := Ideal) x0 x1 x2 x3 x4 x5 x6 = GT x0 x1 x2 x3 x4 x5 x6 := rfl
theorem pay8_eq (x0 : Vec Ideal S1x5000x64 .f32) (x1 : Vec Ideal S64x16 .f32) (x2 : Vec Ideal S16x1 .f32) (x3 : Vec Ideal S16x8 .f32)
    (x4 : Vec Ideal S8x1 .f32) (x5 : Vec Ideal S8x1 .f32) (x6 : Vec Ideal S1x1 .f32) :
    k0_pay8 (F := Ideal) x0 x1 x2 x3 x4 x5 x6 = broadcastTo S8x5000 (GT x0 x1 x2 x3 x4 x5 x6) broadcasts_S1x5000_S8x5000 := rfl

section stages
variable (x0 : Vec Ideal S1x5000x64 .f32) (x1 : Vec Ideal S64x16 .f32) (x2 : Vec Ideal S16x1 .f32) (x3 : Vec Ideal S16x8 .f32)
  (x4 : Vec Ideal S8x1 .f32) (x5 : Vec Ideal S8x1 .f32) (x6 : Vec Ideal S1x1 .f32)

/-- Entry (h, r) of the first stage is feature h of the first hidden layer of cell r: the product's factors commute. -/
theorem H1_apply (h : Fin 16) (r : Fin 5000) :
    H1 x0 x1 x2 (ix2 h r) = hid1 (kwts x1 x2 x3 x4 x5 x6) (krow x0 r) h := by
  unfold H1
  refine (maximumf_apply _ _ _).trans (congrArg₂ max ?_ rfl)
  refine (addf_apply _ _ _).trans (congrArg₂ (· + ·) ?_ ?_)
  · refine (mm1_apply _ _ h r).trans (Finset.sum_congr rfl fun i _ => ?_)
    exact (mul_comm _ _).trans (congrArg₂ (· * ·) (block_apply x0 r i) rfl)
  · exact (broadcastTo_a1_ab_apply _ _ h r).trans (congrFun (shapeCast_self x2 _) _)

/-- Entry (k, r) of the second stage is feature k of the second hidden layer of cell r. -/
theorem H2_apply (k : Fin 8) (r : Fin 5000) :
    H2 x0 x1 x2 x3 x4 (ix2 k r) = hid2 (kwts x1 x2 x3 x4 x5 x6) (krow x0 r) k := by
  unfold H2
  refine (maximumf_apply _ _ _).trans (congrArg₂ max ?_ rfl)
  refine (addf_apply _ _ _).trans (congrArg₂ (· + ·) ?_ ?_)
  · refine (mm2_apply _ _ k r).trans (Finset.sum_congr rfl fun h _ => ?_)
    exact (mul_comm _ _).trans (congrArg₂ (· * ·) (H1_apply x0 x1 x2 x3 x4 x5 x6 h r) rfl)
  · exact (broadcastTo_a1_ab_apply _ _ k r).trans (congrFun (shapeCast_self x4 _) _)

/-- Entry (0, r) of the third stage is the gate of cell r. -/
theorem GT_apply (r : Fin 5000) :
    GT x0 x1 x2 x3 x4 x5 x6 (ix2 (0 : Fin 1) r) = gate (kwts x1 x2 x3 x4 x5 x6) (krow x0 r) := by
  unfold GT
  show Ideal.logistic _ = Ideal.logistic _
  refine congrArg Ideal.logistic ?_
  refine (addf_apply _ _ _).trans (congrArg₂ (· + ·) ?_ ?_)
  · refine (mm3_apply _ _ (0 : Fin 1) r).trans (Finset.sum_congr rfl fun k _ => ?_)
    exact (mul_comm _ _).trans (congrArg₂ (· * ·) (H2_apply x0 x1 x2 x3 x4 x5 x6 k r) rfl)
  · exact (broadcastTo_a1_ab_apply _ _ (0 : Fin 1) r).trans (congrFun (shapeCast_self x6 _) _)

end stages

/-! ## The stores' values at an entry -/

/-- The numerator's accumulator after the run: what it held plus, for feature k, the sum over the run's cells of
    the two matrices' entrywise product along row k. -/
theorem pay1_apply (v24 v34 : FVec Ideal S8x5000 .f32) (v36 : Vec Ideal S8x1 .f32) (k : Fin 8) :
    k0_pay1 (F := Ideal) v24 v34 v36 (ix2 k (0 : Fin 1)) = v36 (ix2 k (0 : Fin 1)) + ∑ r : Fin 5000, v34 (ix2 k r) * v24 (ix2 k r) := by
  unfold k0_pay1
  dsimp only
  refine (congrFun (shapeCast_self _ _) _).trans ?_
  refine (addf_apply _ _ _).trans (congrArg (v36 (ix2 k (0 : Fin 1)) + ·) ?_)
  refine (shapeCast_a_a1_apply _ _ k (0 : Fin 1)).trans ?_
  exact (rowSum_apply _ _ _ _ _ k).trans (Finset.sum_congr rfl fun r _ => mulf_apply _ _ _)

/-- The denominator's accumulator after the run: what it held plus the sum of the row's entries. -/
theorem pay2_apply (v33 : FVec Ideal S1x5000 .f32) (v43 : Vec Ideal S1x1 .f32) :
    k0_pay2 (F := Ideal) v33 v43 (ix2 (0 : Fin 1) (0 : Fin 1)) = v43 (ix2 (0 : Fin 1) (0 : Fin 1)) + ∑ r : Fin 5000, v33 (ix2 (0 : Fin 1) r) := by
  unfold k0_pay2
  dsimp only
  refine (congrFun (shapeCast_self _ _) _).trans ?_
  refine (addf_apply _ _ _).trans (congrArg (v43 (ix2 (0 : Fin 1) (0 : Fin 1)) + ·) ?_)
  refine (shapeCast_a_a1_apply _ _ (0 : Fin 1) (0 : Fin 1)).trans ?_
  exact rowSum_apply _ _ _ _ _ (0 : Fin 1)

/-- The output block: feature k of the numerator divided by the denominator. -/
theorem pay3_apply (v53 : Vec Ideal S8x1 .f32) (v54 : Vec Ideal S1x1 .f32) (k : Fin 8) :
    k0_pay3 (F := Ideal) v53 v54 (ix3 (0 : Fin 1) k (0 : Fin 1))
      = Ideal.div (v53 (ix2 k (0 : Fin 1))) (v54 (ix2 (0 : Fin 1) (0 : Fin 1))) := by
  unfold k0_pay3
  refine (col3_apply _ k).trans ?_
  exact (divf_apply _ _ _).trans (congrArg (Ideal.div (v53 (ix2 k (0 : Fin 1))) ·) (one_rows_apply v54 k))

/-- The accumulators start at zero. -/
theorem pay4_apply (j : S8x1.Idx) : k0_pay4 (F := Ideal) j = 0 := by
  unfold k0_pay4
  refine (congrFun (shapeCast_self _ _) _).trans ?_
  exact Ideal.ofBits_zero_f32
theorem pay5_apply (j : S1x1.Idx) : k0_pay5 (F := Ideal) j = 0 := by
  unfold k0_pay5
  refine (congrFun (shapeCast_self _ _) _).trans ?_
  exact Ideal.ofBits_zero_f32

end Cert.Pool.Ker

end
-- ==== Proof.KernelPieces.lean ====
/-
  What each kind of grid point leaves behind, as terms of the body's stores.

  A point is the first of its batch's four runs, a middle one, or the last. At the first the two accumulators are
  stored as zeros and then, like at every point, overwritten by "what they held plus this run's share"; so after the
  first point they hold zero plus the share, after a later point what the point before left plus the share. At the
  last point the output block is stored too: the numerator's accumulator, just updated, divided entrywise by the
  denominator's. Every load and store goes through a whole buffer, so a buffer read back after a store holds exactly
  the stored value.
-/
import proofs.«171466_j69363721831001_2_alg».proof.Proof.Gen.KernelIdeal.Frame
import Idealize.ShloMosaic.Lib.Pipeline.Value
import Idealize.ShloMosaic.Lib.Tactic

noncomputable section

namespace Cert.Pool.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a batch: the numerator's accumulator, zeroed and read back, plus the run's share. -/
theorem numA (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : cond0_0 i) (hc1 : ¬cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay1 (k0_pay6 x0 x1 x2 x3 x4) (k0_pay8 x0 x1 x2 x3 x4 x5 x6) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

/-- First point of a batch: the denominator's accumulator, zeroed and read back, plus the run's gates. -/
theorem denA (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : cond0_0 i) (hc1 : ¬cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay2 (k0_pay7 x0 x1 x2 x3 x4 x5 x6) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

/-- A middle point: what the numerator's accumulator held plus the run's share. -/
theorem numB (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : ¬cond0_0 i) (hc1 : ¬cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) (xs0 : Vec F S8x1 .f32) (xs1 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay1 (k0_pay6 x0 x1 x2 x3 x4) (k0_pay8 x0 x1 x2 x3 x4 x5 x6) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

/-- A middle point: what the denominator's accumulator held plus the run's gates. -/
theorem denB (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : ¬cond0_0 i) (hc1 : ¬cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) (xs0 : Vec F S8x1 .f32) (xs1 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (k0_pay7 x0 x1 x2 x3 x4 x5 x6) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

/-- The last point: the numerator's accumulator as at a middle point. -/
theorem numC (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : ¬cond0_0 i) (hc1 : cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) (xs0 : Vec F S8x1 .f32) (xs1 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay1 (k0_pay6 x0 x1 x2 x3 x4) (k0_pay8 x0 x1 x2 x3 x4 x5 x6) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

/-- The last point: the denominator's accumulator as at a middle point. -/
theorem denC (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : ¬cond0_0 i) (hc1 : cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) (xs0 : Vec F S8x1 .f32) (xs1 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (k0_pay7 x0 x1 x2 x3 x4 x5 x6) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

/-- The last point: the output block, the two updated accumulators read back and divided. -/
theorem outC (c : Dev nD) (i : grid0.Coords) (arg2 : Memref sig .tc .vmem S1x5000x64 .f32) (harg2 : arg2.IsWhole) (arg3 : Memref sig .tc .vmem S64x16 .f32) (harg3 : arg3.IsWhole) (arg4 : Memref sig .tc .vmem S16x1 .f32) (harg4 : arg4.IsWhole) (arg5 : Memref sig .tc .vmem S16x8 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S1x1 .f32) (harg8 : arg8.IsWhole) (arg9 : Memref sig .tc .vmem S1x8x1 .f32) (harg9 : arg9.IsWhole) (arg10 : Memref sig .tc .vmem S8x1 .f32) (harg10 : arg10.IsWhole) (arg11 : Memref sig .tc .vmem S1x1 .f32) (harg11 : arg11.IsWhole) (hc0 : ¬cond0_0 i) (hc1 : cond0_1 i)
    (x0 : Vec F S1x5000x64 .f32) (x1 : Vec F S64x16 .f32) (x2 : Vec F S16x1 .f32) (x3 : Vec F S16x8 .f32) (x4 : Vec F S8x1 .f32) (x5 : Vec F S8x1 .f32) (x6 : Vec F S1x1 .f32) (xs0 : Vec F S8x1 .f32) (xs1 : Vec F S1x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 (k0_pay1 (k0_pay6 x0 x1 x2 x3 x4) (k0_pay8 x0 x1 x2 x3 x4 x5 x6) xs0) (k0_pay2 (k0_pay7 x0 x1 x2 x3 x4 x5 x6) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz3, View.readCov_unit_zero (S := S8x1) _ hz2, View.readCov_unit_zero (S := S1x1) _ hz2]
  simp only [View.readAt_eq_ld, harg2.read_unread, harg3.read_unread, harg4.read_unread, harg5.read_unread, harg6.read_unread, harg7.read_unread, harg8.read_unread, harg10.read_unread, harg11.read_unread,
    View.ld_unit_zero (S := S1x5000x64) hz3, View.ld_unit_zero (S := S64x16) hz2, View.ld_unit_zero (S := S16x1) hz2, View.ld_unit_zero (S := S16x8) hz2,
    View.ld_unit_zero (S := S8x1) hz2, View.ld_unit_zero (S := S1x1) hz2]

end Cert.Pool.Pieces

end
-- ==== Proof.KernelAcc.lean ====
/-
  The two accumulators along the grid.

  The grid visits batch b's four runs at the points 4 b, 4 b + 1, 4 b + 2, 4 b + 3. The block of cells a point reads
  is run (t mod 4) of batch (t div 4): cell r of the block is cell 5000 (t mod 4) + r of that batch; the six small
  operands are read whole at every point. So by induction on the point, after point t the numerator's accumulator
  holds, for each feature, the running total over the runs 0 … t mod 4 of batch t div 4 of gate times feature, and
  the denominator's the running total of the gates; at a point with t mod 4 = 3 both totals are complete and the
  output block holds their quotient, the pooled feature.
-/
import proofs.«171466_j69363721831001_2_alg».proof.Proof.Gen.KernelIdeal.Frame
import proofs.«171466_j69363721831001_2_alg».proof.Proof.Spec
import proofs.«171466_j69363721831001_2_alg».proof.Proof.KernelCell
import proofs.«171466_j69363721831001_2_alg».proof.Proof.KernelPieces
import Idealize.ShloMosaic.Lib.Pipeline.Value

noncomputable section

namespace Cert.Pool.Acc

open Idealize.ShloMosaic Idealize.ShloMosaic.ValueIdx Idealize.ShloMosaic.TcCoe Idealize.SL.Sem
open Cert.KernelIdeal Cert.KernelIdeal.Gen Cert.Pool.Ker

variable (m : (ℓ : Loc nD τ sig) → Buf (Elt Ideal) ℓ) (c : Dev nD)

/-- Batch `b` as an index (the remainder only makes the function total). -/
def bat (b : ℕ) : Fin 64 := ⟨b % 64, Nat.mod_lt _ (by decide)⟩

/-- The layers' weights as the region finds them. -/
def PK : Wts := kwts (V m c main_arg1) (V m c main_v0) (V m c main_arg3) (V m c main_v1) (V m c main_arg5) (V m c main_v2)

/-- The cells of batch `b` as the region finds them. -/
def XK (b : ℕ) (n : Fin 20000) (i : Fin 64) : EReal := V m c main_arg0 (ix3 (bat b) n i)

/-! ## The blocks a point reads -/

/-- Window 1's block is its whole array at every point: its index map is constantly zero. -/
theorem idx1 : ∀ t : Fin cfg0.N, win0_1.index t 0 = 0 ∧ win0_1.index t 1 = 0 :=
  (by decide +kernel : ∀ t : Fin grid0.N, win0_1.index t 0 = 0 ∧ win0_1.index t 1 = 0)
theorem iblk1 (t : Fin cfg0.N) (y : S64x16.Idx) : iblk m c 1 t y = V m c main_arg1 y := by
  unfold iblk
  rw [View.read_apply]
  show V m c main_arg1 _ = V m c main_arg1 y
  refine congrArg (V m c main_arg1) (funext fun a => Fin.ext ?_)
  have hi := idx1 t
  match a with
  | ⟨0, _⟩ => show win0_1.index t 0 * 64 + 1 * (y 0).val = (y 0).val; rw [hi.1]; omega
  | ⟨1, _⟩ => show win0_1.index t 1 * 16 + 1 * (y 1).val = (y 1).val; rw [hi.2]; omega

/-- Window 2's block is its whole array at every point: its index map is constantly zero. -/
theorem idx2 : ∀ t : Fin cfg0.N, win0_2.index t 0 = 0 ∧ win0_2.index t 1 = 0 :=
  (by decide +kernel : ∀ t : Fin grid0.N, win0_2.index t 0 = 0 ∧ win0_2.index t 1 = 0)
theorem iblk2 (t : Fin cfg0.N) (y : S16x1.Idx) : iblk m c 2 t y = V m c main_v0 y := by
  unfold iblk
  rw [View.read_apply]
  show V m c main_v0 _ = V m c main_v0 y
  refine congrArg (V m c main_v0) (funext fun a => Fin.ext ?_)
  have hi := idx2 t
  match a with
  | ⟨0, _⟩ => show win0_2.index t 0 * 16 + 1 * (y 0).val = (y 0).val; rw [hi.1]; omega
  | ⟨1, _⟩ => show win0_2.index t 1 * 1 + 1 * (y 1).val = (y 1).val; rw [hi.2]; omega

/-- Window 3's block is its whole array at every point: its index map is constantly zero. -/
theorem idx3 : ∀ t : Fin cfg0.N, win0_3.index t 0 = 0 ∧ win0_3.index t 1 = 0 :=
  (by decide +kernel : ∀ t : Fin grid0.N, win0_3.index t 0 = 0 ∧ win0_3.index t 1 = 0)
theorem iblk3 (t : Fin cfg0.N) (y : S16x8.Idx) : iblk m c 3 t y = V m c main_arg3 y := by
  unfold iblk
  rw [View.read_apply]
  show V m c main_arg3 _ = V m c main_arg3 y
  refine congrArg (V m c main_arg3) (funext fun a => Fin.ext ?_)
  have hi := idx3 t
  match a with
  | ⟨0, _⟩ => show win0_3.index t 0 * 16 + 1 * (y 0).val = (y 0).val; rw [hi.1]; omega
  | ⟨1, _⟩ => show win0_3.index t 1 * 8 + 1 * (y 1).val = (y 1).val; rw [hi.2]; omega

/-- Window 4's block is its whole array at every point: its index map is constantly zero. -/
theorem idx4 : ∀ t : Fin cfg0.N, win0_4.index t 0 = 0 ∧ win0_4.index t 1 = 0 :=
  (by decide +kernel : ∀ t : Fin grid0.N, win0_4.index t 0 = 0 ∧ win0_4.index t 1 = 0)
theorem iblk4 (t : Fin cfg0.N) (y : S8x1.Idx) : iblk m c 4 t y = V m c main_v1 y := by
  unfold iblk
  rw [View.read_apply]
  show V m c main_v1 _ = V m c main_v1 y
  refine congrArg (V m c main_v1) (funext fun a => Fin.ext ?_)
  have hi := idx4 t
  match a with
  | ⟨0, _⟩ => show win0_4.index t 0 * 8 + 1 * (y 0).val = (y 0).val; rw [hi.1]; omega
  | ⟨1, _⟩ => show win0_4.index t 1 * 1 + 1 * (y 1).val = (y 1).val; rw [hi.2]; omega

/-- Window 5's block is its whole array at every point: its index map is constantly zero. -/
theorem idx5 : ∀ t : Fin cfg0.N, win0_5.index t 0 = 0 ∧ win0_5.index t 1 = 0 :=
  (by decide +kernel : ∀ t : Fin grid0.N, win0_5.index t 0 = 0 ∧ win0_5.index t 1 = 0)
theorem iblk5 (t : Fin cfg0.N) (y : S8x1.Idx) : iblk m c 5 t y = V m c main_arg5 y := by
  unfold iblk
  rw [View.read_apply]
  show V m c main_arg5 _ = V m c main_arg5 y
  refine congrArg (V m c main_arg5) (funext fun a => Fin.ext ?_)
  have hi := idx5 t
  match a with
  | ⟨0, _⟩ => show win0_5.index t 0 * 8 + 1 * (y 0).val = (y 0).val; rw [hi.1]; omega
  | ⟨1, _⟩ => show win0_5.index t 1 * 1 + 1 * (y 1).val = (y 1).val; rw [hi.2]; omega

/-- Window 6's block is its whole array at every point: its index map is constantly zero. -/
theorem idx6 : ∀ t : Fin cfg0.N, win0_6.index t 0 = 0 ∧ win0_6.index t 1 = 0 :=
  (by decide +kernel : ∀ t : Fin grid0.N, win0_6.index t 0 = 0 ∧ win0_6.index t 1 = 0)
theorem iblk6 (t : Fin cfg0.N) (y : S1x1.Idx) : iblk m c 6 t y = V m c main_v2 y := by
  unfold iblk
  rw [View.read_apply]
  show V m c main_v2 _ = V m c main_v2 y
  refine congrArg (V m c main_v2) (funext fun a => Fin.ext ?_)
  have hi := idx6 t
  match a with
  | ⟨0, _⟩ => show win0_6.index t 0 * 1 + 1 * (y 0).val = (y 0).val; rw [hi.1]; omega
  | ⟨1, _⟩ => show win0_6.index t 1 * 1 + 1 * (y 1).val = (y 1).val; rw [hi.2]; omega

/-- The weights a point reads are the region's. -/
theorem kwts_blocks (t : Fin cfg0.N) :
    kwts (iblk m c 1 t) (iblk m c 2 t) (iblk m c 3 t) (iblk m c 4 t) (iblk m c 5 t) (iblk m c 6 t) = PK m c := by
  have f1 : (iblk m c 1 t : S64x16.Idx → EReal) = V m c main_arg1 := funext (iblk1 m c t)
  have f2 : (iblk m c 2 t : S16x1.Idx → EReal) = V m c main_v0 := funext (iblk2 m c t)
  have f3 : (iblk m c 3 t : S16x8.Idx → EReal) = V m c main_arg3 := funext (iblk3 m c t)
  have f4 : (iblk m c 4 t : S8x1.Idx → EReal) = V m c main_v1 := funext (iblk4 m c t)
  have f5 : (iblk m c 5 t : S8x1.Idx → EReal) = V m c main_arg5 := funext (iblk5 m c t)
  have f6 : (iblk m c 6 t : S1x1.Idx → EReal) = V m c main_v2 := funext (iblk6 m c t)
  unfold PK
  rw [f1, f2, f3, f4, f5, f6]

/-- Window 0's block at point t is block (t div 4, t mod 4, 0) of the cells' array. -/
theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- Cell r of the block read at point t is cell r of run (t mod 4) of batch (t div 4). -/
theorem krow_block (t : Fin cfg0.N) (r : Fin 5000) : krow (iblk m c 0 t) r = XK m c (t.val / 4) (cell (t.val % 4) r) := by
  funext i
  unfold krow XK iblk
  rw [View.read_apply]
  show V m c main_arg0 _ = V m c main_arg0 _
  refine congrArg (V m c main_arg0) (funext fun a => Fin.ext ?_)
  have hi := idx0 t
  have hN : t.val < 256 := lt_of_lt_of_eq t.isLt (show cfg0.N = 256 from N_0)
  have hc := cell_val (t.val % 4) (Nat.mod_lt _ (by decide)) r
  match a with
  | ⟨0, _⟩ =>
    show win0_0.index t 0 * 1 + 1 * (0 : ℕ) = (t.val / 4) % 64
    rw [hi.1]; omega
  | ⟨1, _⟩ =>
    show win0_0.index t 1 * 5000 + 1 * r.val = (cell (t.val % 4) r).val
    rw [hi.2.1, hc]; omega
  | ⟨2, _⟩ =>
    show win0_0.index t 2 * 64 + 1 * i.val = i.val
    rw [hi.2.2]; omega

/-! ## One point's update, over any blocks -/

section step
variable (x0 : Vec Ideal S1x5000x64 .f32) (x1 : Vec Ideal S64x16 .f32) (x2 : Vec Ideal S16x1 .f32) (x3 : Vec Ideal S16x8 .f32)
  (x4 : Vec Ideal S8x1 .f32) (x5 : Vec Ideal S8x1 .f32) (x6 : Vec Ideal S1x1 .f32)
  (P : Wts) (X : Fin 5000 → Fin 64 → EReal) (hP : kwts x1 x2 x3 x4 x5 x6 = P) (hX : ∀ r, krow x0 r = X r)
include hP hX

/-- The numerator's accumulator gains the run's sum of gate times feature. -/
theorem num_step (prev : Vec Ideal S8x1 .f32) (k : Fin 8) :
    k0_pay1 (F := Ideal) (k0_pay6 x0 x1 x2 x3 x4) (k0_pay8 x0 x1 x2 x3 x4 x5 x6) prev (ix2 k (0 : Fin 1))
      = prev (ix2 k (0 : Fin 1)) + ∑ r : Fin 5000, gate P (X r) * hid2 P (X r) k := by
  subst hP
  refine (pay1_apply _ _ _ k).trans (congrArg (prev (ix2 k (0 : Fin 1)) + ·) (Finset.sum_congr rfl fun r _ => ?_))
  have e8 : k0_pay8 (F := Ideal) x0 x1 x2 x3 x4 x5 x6 (ix2 k r) = gate (kwts x1 x2 x3 x4 x5 x6) (X r) := by
    rw [pay8_eq, rows_apply, GT_apply, hX r]
  have e6 : k0_pay6 (F := Ideal) x0 x1 x2 x3 x4 (ix2 k r) = hid2 (kwts x1 x2 x3 x4 x5 x6) (X r) k := by
    rw [pay6_eq, H2_apply x0 x1 x2 x3 x4 x5 x6, hX r]
  rw [e8, e6]

/-- The denominator's accumulator gains the run's sum of gates. -/
theorem den_step (prev : Vec Ideal S1x1 .f32) :
    k0_pay2 (F := Ideal) (k0_pay7 x0 x1 x2 x3 x4 x5 x6) prev (ix2 (0 : Fin 1) (0 : Fin 1))
      = prev (ix2 (0 : Fin 1) (0 : Fin 1)) + ∑ r : Fin 5000, gate P (X r) := by
  subst hP
  refine (pay2_apply _ _).trans (congrArg (prev (ix2 (0 : Fin 1) (0 : Fin 1)) + ·) (Finset.sum_congr rfl fun r _ => ?_))
  rw [pay7_eq, GT_apply, hX r]

end step

/-! ## The induction over the points -/

/-- What the two accumulators hold after point `n`. -/
def Inv (n : ℕ) (h : n < cfg0.N) : Prop :=
  (∀ k : Fin 8, (outsAt0 m c n h).2.1 (ix2 k (0 : Fin 1)) = accSum (numTerm (PK m c) (XK m c (n / 4)) k) (n % 4))
  ∧ (outsAt0 m c n h).2.2 (ix2 (0 : Fin 1) (0 : Fin 1)) = accSum (denTerm (PK m c) (XK m c (n / 4))) (n % 4)

/-- The run's share of the numerator at point t, in the specification's words. -/
theorem num_run (t : Fin cfg0.N) (k : Fin 8) :
    (∑ r : Fin 5000, gate (PK m c) (XK m c (t.val / 4) (cell (t.val % 4) r)) * hid2 (PK m c) (XK m c (t.val / 4) (cell (t.val % 4) r)) k)
      = runSum (numTerm (PK m c) (XK m c (t.val / 4)) k) (t.val % 4) := rfl
theorem den_run (t : Fin cfg0.N) :
    (∑ r : Fin 5000, gate (PK m c) (XK m c (t.val / 4) (cell (t.val % 4) r)))
      = runSum (denTerm (PK m c) (XK m c (t.val / 4))) (t.val % 4) := rfl

/-- The numerator's update at point t from any previous contents. -/
theorem num_at (t : Fin cfg0.N) (prev : Vec Ideal S8x1 .f32) (k : Fin 8) :
    k0_pay1 (F := Ideal) (k0_pay6 (iblk m c 0 t) (iblk m c 1 t) (iblk m c 2 t) (iblk m c 3 t) (iblk m c 4 t))
        (k0_pay8 (iblk m c 0 t) (iblk m c 1 t) (iblk m c 2 t) (iblk m c 3 t) (iblk m c 4 t) (iblk m c 5 t) (iblk m c 6 t)) prev (ix2 k (0 : Fin 1))
      = prev (ix2 k (0 : Fin 1)) + runSum (numTerm (PK m c) (XK m c (t.val / 4)) k) (t.val % 4) :=
  (num_step (iblk m c 0 t) (iblk m c 1 t) (iblk m c 2 t) (iblk m c 3 t) (iblk m c 4 t) (iblk m c 5 t) (iblk m c 6 t) (PK m c) (fun r => XK m c (t.val / 4) (cell (t.val % 4) r))
    (kwts_blocks m c t) (krow_block m c t) prev k).trans (congrArg (prev (ix2 k (0 : Fin 1)) + ·) (num_run m c t k))

/-- The denominator's update at point t from any previous contents. -/
theorem den_at (t : Fin cfg0.N) (prev : Vec Ideal S1x1 .f32) :
    k0_pay2 (F := Ideal) (k0_pay7 (iblk m c 0 t) (iblk m c 1 t) (iblk m c 2 t) (iblk m c 3 t) (iblk m c 4 t) (iblk m c 5 t) (iblk m c 6 t)) prev (ix2 (0 : Fin 1) (0 : Fin 1))
      = prev (ix2 (0 : Fin 1) (0 : Fin 1)) + runSum (denTerm (PK m c) (XK m c (t.val / 4))) (t.val % 4) :=
  (den_step (iblk m c 0 t) (iblk m c 1 t) (iblk m c 2 t) (iblk m c 3 t) (iblk m c 4 t) (iblk m c 5 t) (iblk m c 6 t) (PK m c) (fun r => XK m c (t.val / 4) (cell (t.val % 4) r))
    (kwts_blocks m c t) (krow_block m c t) prev).trans (congrArg (prev (ix2 (0 : Fin 1) (0 : Fin 1)) + ·) (den_run m c t))

/-- A running total one run further. -/
theorem accSum_succ (g : Fin 20000 → EReal) (j : ℕ) : accSum g (j + 1) = accSum g j + runSum g (j + 1) := rfl

/-- After every point the accumulators hold the running totals of the point's batch. -/
theorem inv : ∀ (n : ℕ) (h : n < cfg0.N), Inv m c n h := by
  intro n
  induction n with
  | zero =>
    intro h
    have h0 : (⟨0, h⟩ : Fin cfg0.N).val % 4 = 0 := rfl
    have h1 : ¬(⟨0, h⟩ : Fin cfg0.N).val % 4 = 3 := by
      show ¬((0 : ℕ) % 4 = 3)
      decide
    unfold Inv
    rw [outsAt0_A m c ⟨0, h⟩ h0 h1]
    dsimp only
    refine ⟨fun k => ?_, ?_⟩
    · rw [Cert.Pool.Pieces.numA]
      refine (num_at m c ⟨0, h⟩ _ k).trans ?_
      rw [pay4_apply, zero_add]
      rfl
    · rw [Cert.Pool.Pieces.denA]
      refine (den_at m c ⟨0, h⟩ _).trans ?_
      rw [pay5_apply, zero_add]
      rfl
  | succ n ih =>
    intro h
    have hN : n + 1 < 256 := lt_of_lt_of_eq h (show cfg0.N = 256 from N_0)
    have ih' := ih (Nat.lt_of_succ_lt h)
    unfold Inv at ih' ⊢
    by_cases h0 : (n + 1) % 4 = 0
    · have h1 : ¬(n + 1) % 4 = 3 := by omega
      rw [outsAt0_A m c ⟨n + 1, h⟩ h0 h1]
      dsimp only
      refine ⟨fun k => ?_, ?_⟩
      · rw [Cert.Pool.Pieces.numA]
        refine (num_at m c ⟨n + 1, h⟩ _ k).trans ?_
        rw [pay4_apply, zero_add]
        show runSum _ ((n + 1) % 4) = _
        rw [h0]; rfl
      · rw [Cert.Pool.Pieces.denA]
        refine (den_at m c ⟨n + 1, h⟩ _).trans ?_
        rw [pay5_apply, zero_add]
        show runSum _ ((n + 1) % 4) = _
        rw [h0]; rfl
    · have hq : (n + 1) / 4 = n / 4 := by omega
      have hr : (n + 1) % 4 = n % 4 + 1 := by omega
      have eprev : ∀ pf, outsAt0 m c (n + 1 - 1) pf = outsAt0 m c n (Nat.lt_of_succ_lt h) := fun _ => rfl
      by_cases h1 : (n + 1) % 4 = 3
      · rw [outsAt0_C m c ⟨n + 1, h⟩ h0 h1]
        dsimp only
        refine ⟨fun k => ?_, ?_⟩
        · rw [Cert.Pool.Pieces.numC]
          refine (num_at m c ⟨n + 1, h⟩ _ k).trans ?_
          show (outsAt0 m c (n + 1 - 1) _).2.1 _ + runSum _ ((n + 1) % 4) = _
          rw [eprev, ih'.1 k, hq, hr]
          rfl
        · rw [Cert.Pool.Pieces.denC]
          refine (den_at m c ⟨n + 1, h⟩ _).trans ?_
          show (outsAt0 m c (n + 1 - 1) _).2.2 _ + runSum _ ((n + 1) % 4) = _
          rw [eprev, ih'.2, hq, hr]
          rfl
      · rw [outsAt0_B m c ⟨n + 1, h⟩ h0 h1]
        dsimp only
        refine ⟨fun k => ?_, ?_⟩
        · rw [Cert.Pool.Pieces.numB]
          refine (num_at m c ⟨n + 1, h⟩ _ k).trans ?_
          show (outsAt0 m c (n + 1 - 1) _).2.1 _ + runSum _ ((n + 1) % 4) = _
          rw [eprev, ih'.1 k, hq, hr]
          rfl
        · rw [Cert.Pool.Pieces.denB]
          refine (den_at m c ⟨n + 1, h⟩ _).trans ?_
          show (outsAt0 m c (n + 1 - 1) _).2.2 _ + runSum _ ((n + 1) % 4) = _
          rw [eprev, ih'.2, hq, hr]
          rfl

end Cert.Pool.Acc

end
-- ==== Proof.KernelArr.lean ====
/-
  The output array after the run.

  The output's block at point t is row (t div 4) of the 64 × 8 × 1 array, and it is written back exactly at the last
  of a batch's four points, t mod 4 = 3. What that point leaves in the block is the quotient of the two completed
  running totals: the pooled features of batch t div 4. The 64 write-backs, one per batch, cover the array, so after
  the run entry (b, k, 0) of the array is pooled feature k of batch b.
-/
import proofs.«171466_j69363721831001_2_alg».proof.Proof.KernelAcc

noncomputable section

namespace Cert.Pool.Arr

open Idealize.ShloMosaic Idealize.ShloMosaic.ValueIdx Idealize.ShloMosaic.TcCoe Idealize.SL.Sem
open Cert.KernelIdeal Cert.KernelIdeal.Gen Cert.Pool.Ker Cert.Pool.Acc

variable (m : (ℓ : Loc nD τ sig) → Buf (Elt Ideal) ℓ) (c : Dev nD)

/-- The array the region leaves: entry (b, k, ·) is pooled feature k of batch b. -/
def outArr : S64x8x1.Idx → EReal := fun i => pooled (PK m c) (XK m c (i 0).val) (i 1)

/-- At the last point of a batch the output block holds the batch's pooled features. -/
theorem out_last (t : Fin cfg0.N) (h3 : t.val % 4 = 3) (k : Fin 8) :
    (outsAt0 m c t.val t.isLt).1 (ix3 (0 : Fin 1) k (0 : Fin 1)) = pooled (PK m c) (XK m c (t.val / 4)) k := by
  have h0 : ¬t.val % 4 = 0 := by omega
  have hinv := inv m c t.val t.isLt
  unfold Cert.Pool.Acc.Inv at hinv
  rw [outsAt0_C m c t h0 h3] at hinv ⊢
  dsimp only at hinv ⊢
  rw [Cert.Pool.Pieces.numC, Cert.Pool.Pieces.denC] at hinv
  rw [Cert.Pool.Pieces.outC]
  refine (pay3_apply _ _ k).trans ?_
  rw [hinv.1 k, hinv.2, h3]
  unfold pooled
  rw [num_eq_acc, den_eq_acc]

/-- The output's block at point t is block (t div 4, 0, 0). -/
theorem idx7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)

/-- What a write-back writes is its block of that array. -/
theorem flushed_eq (t : Fin cfg0.N) (hf : (cfg0.win 7).flush t = true) :
    (dats m 0 c).flushed 7 t = ((cfg0.win 7).blk t).view.read (Elt Ideal) (outArr m c) := by
  have h3 : t.val % 4 = 3 := (flush0_7 t).mp hf
  have hi := idx7 t
  show (cfg0.win 7).cut (grid0.coords t) ((dats m 0 c).after 7 t) = _
  rw [after0_7]
  funext j
  obtain ⟨k, rfl⟩ : ∃ k : Fin 8, j = ix3 (0 : Fin 1) k (0 : Fin 1) :=
    ⟨j 1, funext fun a => by
      have q0 : (j 0).val < 1 := (j 0).isLt
      have q2 : (j 2).val < 1 := (j 2).isLt
      match a with
      | ⟨0, _⟩ => exact Fin.ext (by show (j 0).val = 0; omega)
      | ⟨1, _⟩ => rfl
      | ⟨2, _⟩ => exact Fin.ext (by show (j 2).val = 0; omega)⟩
  rw [View.read_apply]
  refine (out_last m c t h3 k).trans ?_
  have e0 : ((((cfg0.win 7).blk t).view.emb (ix3 (0 : Fin 1) k (0 : Fin 1))) 0).val = t.val / 4 := by
    show win0_7.index t 0 * 1 + 1 * (0 : ℕ) = _
    rw [hi.1]; omega
  have e1 : (((cfg0.win 7).blk t).view.emb (ix3 (0 : Fin 1) k (0 : Fin 1))) 1 = k := Fin.ext (by
    show win0_7.index t 1 * 8 + 1 * k.val = k.val
    rw [hi.2.1]; omega)
  unfold outArr
  rw [e0, e1]
  exact (cast_eq _ _).symm

/-- An index of the array is in point t's block iff each coordinate is in the block's range on its axis. -/
theorem mem_blk (t : Fin cfg0.N) (i : S64x8x1.Idx) :
    i ∈ ((cfg0.win 7).blk t).view.set ↔ ∀ a : Fin 3, win0_7.index t a * S1x8x1.size a ≤ (i a).val ∧ (i a).val < win0_7.index t a * S1x8x1.size a + S1x8x1.size a := by
  show i ∈ ((View.whole main_v3).slice (win0_7.rect t)).set ↔ _
  rw [View.set_slice_whole, Rect.mem_set_unit]
  exact Iff.rfl

/-- Row b of the array is written back at point 4 b + 3. -/
theorem cover (i : S64x8x1.Idx) : ∃ t : Fin cfg0.N, (cfg0.win 7).flush t = true ∧ i ∈ ((cfg0.win 7).blk t).view.set := by
  have h0 : (i 0).val < 64 := (i 0).isLt
  have h1 : (i 1).val < 8 := (i 1).isLt
  have h2 : (i 2).val < 1 := (i 2).isLt
  have hN : cfg0.N = 256 := N_0
  refine ⟨⟨4 * (i 0).val + 3, by omega⟩, (flush0_7 _).mpr (by show (4 * (i 0).val + 3) % 4 = 3; omega), ?_⟩
  rw [mem_blk]
  have hi := idx7 ⟨4 * (i 0).val + 3, by omega⟩
  have hq : (4 * (i 0).val + 3) / 4 = (i 0).val := by omega
  intro a
  match a with
  | ⟨0, _⟩ =>
    show win0_7.index ⟨4 * (i 0).val + 3, _⟩ 0 * 1 ≤ (i 0).val ∧ (i 0).val < win0_7.index ⟨4 * (i 0).val + 3, _⟩ 0 * 1 + 1
    rw [hi.1]; show (4 * (i 0).val + 3) / 4 * 1 ≤ (i 0).val ∧ (i 0).val < (4 * (i 0).val + 3) / 4 * 1 + 1; omega
  | ⟨1, _⟩ =>
    show win0_7.index ⟨4 * (i 0).val + 3, _⟩ 1 * 8 ≤ (i 1).val ∧ (i 1).val < win0_7.index ⟨4 * (i 0).val + 3, _⟩ 1 * 8 + 8
    rw [hi.2.1]; omega
  | ⟨2, _⟩ =>
    show win0_7.index ⟨4 * (i 0).val + 3, _⟩ 2 * 1 ≤ (i 2).val ∧ (i 2).val < win0_7.index ⟨4 * (i 0).val + 3, _⟩ 2 * 1 + 1
    rw [hi.2.2]; omega

/-- After the run the output array holds every batch's pooled features. -/
theorem final7 : (dats m 0 c).arrAt 7 cfg0.N = outArr m c :=
  (dats m 0 c).arrAt_eq_of_cover 7 (outArr m c) (flushed_eq m c) (cover)

end Cert.Pool.Arr

end
-- ==== Proof.KernelHost.lean ====
/-
  The host operations of the kernel program around its one region.

  After the region the program casts the pooled block [64, 8, 1] to the matrix [64, 8], multiplies it by the head's
  8 × 2 weight matrix and adds the head's bias, broadcast along the batches: entry (b, o) of the result is output o of
  the head applied to the pooled features of batch b. Before the region it casts the three bias vectors (of lengths
  16, 8 and 1) to columns.
-/
import proofs.«171466_j69363721831001_2_alg».proof.Proof.Gen.KernelIdeal.Frame
import proofs.«171466_j69363721831001_2_alg».proof.Proof.Spec
import proofs.«171466_j69363721831001_2_alg».proof.Proof.LibKeepdims
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

noncomputable section

namespace Cert.Pool.Host

open Cert.KernelIdeal Cert.KernelIdeal.Gen Idealize.ShloMosaic Idealize.ShloMosaic.ValueIdx Idealize.ShloMosaic.TcCoe Idealize.SL.Sem

/-! ## The operations after the region, as one function -/

/-- The pooled block cast to a matrix, times the head's weights, plus the head's bias broadcast along the batches. -/
def tail (A : (⟨S64x8x1, .f32⟩ : BufTy).Contents (Elt Ideal)) (x7 : (⟨S8x2, .f32⟩ : BufTy).Contents (Elt Ideal)) (x8 : (⟨S2, .f32⟩ : BufTy).Contents (Elt Ideal)) : (⟨S64x2, .f32⟩ : BufTy).Contents (Elt Ideal) :=
  addf (F := Ideal) (φ := .f32) (Host.dotGeneral (F := Ideal) (φ₁ := .f32) (φ₂ := .f32) dot_S64x8_S8x2_S64x2_1_0_0_1_n_n none (shapeCast S64x8 A shapeCasts_S64x8x1_S64x8) x7)
    (broadcastInDim S64x2 ![0, 1] bcast_S1x2_S64x2_0_1 (broadcastInDim S1x2 ![1] bcast_S2_S1x2_1 x8))

/-- The product's left operand index at output `i`: its row is `i`'s row, -/
theorem lhs0 (i : S64x2.Idx) (q : dot_S64x8_S8x2_S64x2_1_0_0_1_n_n.contr.Idx) : (dot_S64x8_S8x2_S64x2_1_0_0_1_n_n.lhsIdx i q 0).val = (i 0).val := by
  unfold DotDims.lhsIdx
  rw [dif_neg (show ¬(0 : Fin S64x8.rank) ∈ dot_S64x8_S8x2_S64x2_1_0_0_1_n_n.lhsBatch by decide), dif_pos (show (0 : Fin S64x8.rank) ∈ dot_S64x8_S8x2_S64x2_1_0_0_1_n_n.lhsNonContracting by decide)]
  rfl
/-- its column the contracted coordinate. -/
theorem lhs1 (i : S64x2.Idx) (q : dot_S64x8_S8x2_S64x2_1_0_0_1_n_n.contr.Idx) : (dot_S64x8_S8x2_S64x2_1_0_0_1_n_n.lhsIdx i q 1).val = (q ⟨0, by decide⟩).val :=
  dot_S64x8_S8x2_S64x2_1_0_0_1_n_n.lhsIdx_val_of_single rfl i q
/-- The right operand index: its row is the contracted coordinate, -/
theorem rhs0 (i : S64x2.Idx) (q : dot_S64x8_S8x2_S64x2_1_0_0_1_n_n.contr.Idx) : (dot_S64x8_S8x2_S64x2_1_0_0_1_n_n.rhsIdx i q 0).val = (q ⟨0, by decide⟩).val :=
  dot_S64x8_S8x2_S64x2_1_0_0_1_n_n.rhsIdx_val_of_single rfl i q
/-- its column `i`'s column. -/
theorem rhs1 (i : S64x2.Idx) (q : dot_S64x8_S8x2_S64x2_1_0_0_1_n_n.contr.Idx) : (dot_S64x8_S8x2_S64x2_1_0_0_1_n_n.rhsIdx i q 1).val = (i 1).val := by
  unfold DotDims.rhsIdx
  rw [dif_neg (show ¬(1 : Fin S8x2.rank) ∈ dot_S64x8_S8x2_S64x2_1_0_0_1_n_n.rhsBatch by decide), dif_pos (show (1 : Fin S8x2.rank) ∈ dot_S64x8_S8x2_S64x2_1_0_0_1_n_n.rhsNonContracting by decide)]
  rfl

/-- The product at `(b, o)`: the sum over the 8 contracted coordinates of left `(b, k)` times right `(k, o)`. -/
theorem dot_apply (l : (⟨S64x8, .f32⟩ : BufTy).Contents (Elt Ideal)) (r : (⟨S8x2, .f32⟩ : BufTy).Contents (Elt Ideal)) (b : Fin 64) (o : Fin 2) :
    Host.dotGeneral (F := Ideal) (φ₁ := .f32) (φ₂ := .f32) dot_S64x8_S8x2_S64x2_1_0_0_1_n_n none l r (ix2 b o) = ∑ k : Fin 8, l (ix2 b k) * r (ix2 k o) := by
  simp only [Host.dotGeneral]
  rw [Ideal.dotGeneral_apply, ← Equiv.sum_comp (ValueIdx.contrEquiv1 dot_S64x8_S8x2_S64x2_1_0_0_1_n_n 8 rfl rfl).symm]
  refine Finset.sum_congr rfl fun k _ => ?_
  have hk := ValueIdx.contrEquiv1_symm_val dot_S64x8_S8x2_S64x2_1_0_0_1_n_n 8 rfl rfl k
  have el : dot_S64x8_S8x2_S64x2_1_0_0_1_n_n.lhsIdx (ix2 b o) ((ValueIdx.contrEquiv1 dot_S64x8_S8x2_S64x2_1_0_0_1_n_n 8 rfl rfl).symm k) = ix2 b k := funext fun a => Fin.ext (by
    match a with
    | ⟨0, _⟩ => exact lhs0 _ _
    | ⟨1, _⟩ => exact (lhs1 _ _).trans hk)
  have er : dot_S64x8_S8x2_S64x2_1_0_0_1_n_n.rhsIdx (ix2 b o) ((ValueIdx.contrEquiv1 dot_S64x8_S8x2_S64x2_1_0_0_1_n_n 8 rfl rfl).symm k) = ix2 k o := funext fun a => Fin.ext (by
    match a with
    | ⟨0, _⟩ => exact (rhs0 _ _).trans hk
    | ⟨1, _⟩ => exact rhs1 _ _)
  rw [el, er]

/-- The block `[64, 8, 1]` cast to `[64, 8]` reads, at `(b, k)`, the block at `(b, k, 0)`: the two row-major
    positions are both `8 b + k`. -/
theorem cast_apply {α : Type} (A : S64x8x1.Idx → α) (b : Fin 64) (k : Fin 8) :
    shapeCast S64x8 A shapeCasts_S64x8x1_S64x8 (ix2 b k) = A (ix3 b k (0 : Fin 1)) :=
  shapeCast_apply A _ _ _ (by
    rw [Shape.rowMajor_val_three, Shape.rowMajor_val_two]
    show (b.val * 8 + k.val) * 1 + 0 = b.val * 8 + k.val
    omega)

/-- The bias of length 2, broadcast to `[1, 2]` and then along the 64 batches, reads at `(b, o)` the bias at `o`. -/
theorem bias_apply (x8 : (⟨S2, .f32⟩ : BufTy).Contents (Elt Ideal)) (b : Fin 64) (o : Fin 2) :
    broadcastInDim S64x2 ![0, 1] bcast_S1x2_S64x2_0_1 (broadcastInDim S1x2 ![1] bcast_S2_S1x2_1 x8) (ix2 b o) = x8 (ix1 o) :=
  (broadcastInDim_apply _ bcast_S1x2_S64x2_0_1 _ (ix2 b o) (ix2 (0 : Fin 1) o) (fun a => match a with
    | ⟨0, _⟩ => by show 0 = if (1 : Nat) = 1 then 0 else b.val; rw [if_pos rfl]
    | ⟨1, _⟩ => by show o.val = if (2 : Nat) = 1 then 0 else o.val; rw [if_neg (by decide)])).trans
  (broadcastInDim_apply _ bcast_S2_S1x2_1 x8 (ix2 (0 : Fin 1) o) (ix1 o) (fun a => match a with
    | ⟨0, _⟩ => by show o.val = if (2 : Nat) = 1 then 0 else o.val; rw [if_neg (by decide)]))

/-- Entry `(b, o)` of the operations after the region, when the block holds the features `p b k` at `(b, k, 0)`: output
    `o` of the head applied to the features of batch `b`. -/
theorem tail_apply (A : (⟨S64x8x1, .f32⟩ : BufTy).Contents (Elt Ideal)) (x7 : (⟨S8x2, .f32⟩ : BufTy).Contents (Elt Ideal)) (x8 : (⟨S2, .f32⟩ : BufTy).Contents (Elt Ideal)) (p : Fin 64 → Fin 8 → EReal)
    (hA : ∀ b k, A (ix3 b k (0 : Fin 1)) = p b k) (b : Fin 64) (o : Fin 2) :
    tail A x7 x8 (ix2 b o) = Cert.Pool.head (fun k o => x7 (ix2 k o)) (fun o => x8 (ix1 o)) (p b) o := by
  unfold tail
  rw [addf_apply, dot_apply, bias_apply]
  simp only [cast_apply, hA]
  rfl

variable (m : (ℓ : Loc nD τ sig) → Buf (Elt Ideal) ℓ)

/-! ## The operations before the region -/

/-- The first bias as the region finds it: the vector of length 16 cast to a column. -/
theorem V_main_v0 (c : Dev nD) :
    V m c main_v0 = shapeCast S16x1 (m ((c : Thread nD τ).loc main_arg2)) shapeCasts_S16_S16x1 := by
  show StableHlo.after hostOps0 (fun b => m (c, b)) (Proc.devRef .tc main_v0) = _
  after_results
  rfl

/-- The second bias as the region finds it: the vector of length 8 cast to a column. -/
theorem V_main_v1 (c : Dev nD) :
    V m c main_v1 = shapeCast S8x1 (m ((c : Thread nD τ).loc main_arg4)) shapeCasts_S8_S8x1 := by
  show StableHlo.after hostOps0 (fun b => m (c, b)) (Proc.devRef .tc main_v1) = _
  after_results
  rfl

/-- The gate's bias as the region finds it: the vector of length 1 cast to a column. -/
theorem V_main_v2 (c : Dev nD) :
    V m c main_v2 = shapeCast S1x1 (m ((c : Thread nD τ).loc main_arg6)) shapeCasts_S1_S1x1 := by
  show StableHlo.after hostOps0 (fun b => m (c, b)) (Proc.devRef .tc main_v2) = _
  after_results
  rfl

/-! ## The operations after the region -/

/-- The program's result: the operations after the region applied to the array the region leaves in its last window
    (the pooled block) and to the head's weights and bias as launched, which no host operation writes. -/
theorem tail_eq (c : Dev nD) :
    Pipeline.afterTail₀ cfgs (dats m) 0 (V0 m) [hostOps1] c main_v8
      = tail ((dats m 0 c).arrAt 7 cfg0.N) (m ((c : Thread nD τ).loc main_arg7)) (m ((c : Thread nD τ).loc main_arg8)) := by
  unfold Pipeline.afterTail₀
  show StableHlo.after hostOps1 _ (Proc.devRef .tc main_v8) = _
  after_results
  have e3 : Pipeline.withArrays (cfgs 0).spec c (V0 m c) (fun w => (dats m 0 c).arrAt w (cfgs 0).N) (Proc.devRef .tc main_v3)
      = (dats m 0 c).arrAt 7 cfg0.N :=
    Pipeline.withArrays_arr spec0 launch0.win.arr_inj c (V0 m c) (fun w => (dats m 0 c).arrAt w (cfgs 0).N) 7
  have e7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans
      (V_main_arg7 m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans
      (V_main_arg8 m c)
  rw [e3, e7, e8]
  rfl

end Cert.Pool.Host

end
-- ==== Proof.KernelRun.lean ====
/-
  The idealized kernel program, run: its result as one function of the nine arguments.

  Before the region three one-dimensional biases are re-laid as columns; the region leaves every batch's pooled
  features in its output array; after it the array is re-laid as a 64 × 8 matrix, multiplied by the head's weights and
  the head's bias is added. The weights the region finds are therefore the arguments' (a column's entry (h, 0) is the
  vector's entry h), the cells are the first argument's, and the program's result is the specification's.
-/
import proofs.«171466_j69363721831001_2_alg».proof.Proof.KernelArr
import proofs.«171466_j69363721831001_2_alg».proof.Proof.KernelHost

noncomputable section

namespace Cert.Pool.Run

open Idealize.ShloMosaic Idealize.ShloMosaic.ValueIdx Idealize.ShloMosaic.TcCoe Idealize.SL.Sem
open Cert.KernelIdeal Cert.KernelIdeal.Gen Cert.Pool.Ker Cert.Pool.Acc Cert.Pool.Arr

variable (m : (ℓ : Loc nD τ sig) → Buf (Elt Ideal) ℓ) (ρ : Dev nD → PrngReg) (c : Dev nD)

/-- Two weight records with equal fields are equal. -/
theorem wts_congr {a1 a1' : Fin 64 → Fin 16 → EReal} {a2 a2' : Fin 16 → EReal} {a3 a3' : Fin 16 → Fin 8 → EReal}
    {a4 a4' : Fin 8 → EReal} {a5 a5' : Fin 8 → EReal} {a6 a6' : EReal}
    (h1 : a1 = a1') (h2 : a2 = a2') (h3 : a3 = a3') (h4 : a4 = a4') (h5 : a5 = a5') (h6 : a6 = a6') :
    Wts.mk a1 a2 a3 a4 a5 a6 = Wts.mk a1' a2' a3' a4' a5' a6' := by
  subst h1 h2 h3 h4 h5 h6; rfl

/-- The weights the region finds are the arguments': the re-laid biases read back entry by entry. -/
theorem PK_eq : PK m c = wts (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  unfold PK kwts wts
  rw [V_main_arg1 m c, V_main_arg3 m c, V_main_arg5 m c, Cert.Pool.Host.V_main_v0 m c, Cert.Pool.Host.V_main_v1 m c,
    Cert.Pool.Host.V_main_v2 m c]
  exact wts_congr rfl (funext fun h => shapeCast_a_a1_apply _ _ h (0 : Fin 1)) rfl
    (funext fun k => shapeCast_a_a1_apply _ _ k (0 : Fin 1)) rfl (shapeCast_a_a1_apply _ _ (0 : Fin 1) (0 : Fin 1))

/-- The cells the region finds are the first argument's. -/
theorem XK_eq (b : Fin 64) : XK m c b.val = cells (m ((c : Thread nD τ).loc main_arg0)) b := by
  funext n i
  unfold XK cells
  rw [V_main_arg0 m c]
  have hb : bat b.val = b := Fin.ext (Nat.mod_eq_of_lt b.isLt)
  rw [hb]

/-- The operations after the region, applied to the array the region leaves, give the specification's result. -/
theorem tail_is_result :
    Cert.Pool.Host.tail ((dats m 0 c).arrAt 7 cfg0.N) (m ((c : Thread nD τ).loc main_arg7)) (m ((c : Thread nD τ).loc main_arg8))
      = Cert.Pool.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext j
  obtain ⟨b, o, rfl⟩ : ∃ (b : Fin 64) (o : Fin 2), j = ix2 b o := ⟨j 0, j 1, eq_ix2 j⟩
  rw [Cert.Pool.Host.tail_apply _ _ _ (fun b k => pooled (PK m c) (XK m c b.val) k)
    (fun b k => by rw [final7 m c]; rfl) b o]
  unfold Cert.Pool.result
  rw [PK_eq m c, XK_eq m c b]

/-- Every weakly fair execution of the idealized kernel program terminates with its result at the specification's
    function of the arguments, and the arguments unchanged. -/
theorem kernel_run : θ_run defs (onTc (τ := τ) (main (F := Ideal))) ⟨m, fun _ => 0, ρ⟩ (fun r => ∀ c : Dev nD,
      r.2.mem ((c.tc : Thread nD τ).loc main_v8)
        = Cert.Pool.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(((h c).2 main_v8 (Pipeline.mem_restRefs_of main_v8 (by decide) (by decide))).trans (Cert.Pool.Host.tail_eq m c)).trans
        (tail_is_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.Pool.Run

end
-- ==== Proof.lean ====
/-
  The five claims of the certificate.

  Both idealized programs compute, on the extended reals, the same function of their nine arguments: per batch, the
  gate-weighted sum of each second-layer feature over the batch's 20000 cells divided by the sum of the gates, then
  an affine head. The kernel reaches it through four runs of 5000 cells per batch, accumulated across grid points;
  the reference through whole-array operations. The two agree because a finite sum in a commutative monoid may be
  taken in any grouping, a product of two extended reals in either order, and the kernel's logistic is by definition
  the reference's 1 / (1 + exp (−x)). Finiteness of the inputs is never used.

  The three frames: the two kernel programs' are the generated frame runs, the reference's is its generated run with
  the result dropped. The idealization rewrote nothing, so there is nothing to preserve.
-/
import proofs.«171466_j69363721831001_2_alg».proof.Defs
import proofs.«171466_j69363721831001_2_alg».proof.Proof.Gen.Kernel
import proofs.«171466_j69363721831001_2_alg».proof.Proof.Gen.Kernel.Frame
import proofs.«171466_j69363721831001_2_alg».proof.Proof.Gen.KernelIdeal
import proofs.«171466_j69363721831001_2_alg».proof.Proof.Gen.KernelIdeal.Frame
import proofs.«171466_j69363721831001_2_alg».proof.Proof.Gen.ReferenceIdeal
import proofs.«171466_j69363721831001_2_alg».proof.Proof.Gen.ReferenceIdeal.Run
import proofs.«171466_j69363721831001_2_alg».proof.Proof.Gen.ReferenceIdeal.Read
import proofs.«171466_j69363721831001_2_alg».proof.Proof.Gen.Pre_finite_inputs
import proofs.«171466_j69363721831001_2_alg».proof.Proof.RefStages
import proofs.«171466_j69363721831001_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments both programs end with the specification's result of them. -/
theorem algebraic : Cert.algebraic_KernelIdeal_ReferenceIdeal := by
  intro m ρ m' ρ' _ hagree
  refine ⟨fun c => Cert.Pool.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.Pool.Run.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Pool.Ref.ref_is_result,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
